-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩
abbrev S2x1600000 : Shape := ⟨2, ![2, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S128 .f32) (main_arg5 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S_ .f32) (main_arg6 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S_ : Shape := ⟨0, ![]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 78
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S2x1600000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S100000x128, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x1, .f32⟩
  | .hbm, ⟨77, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x1, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  reduces_S5000x128_S128 : S5000x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x128 : S_.BroadcastsInDim S1x128 (![] : Fin 0 → Fin S1x128.rank)
  shapeCasts_S_S1x1 : S_.ShapeCasts S1x1
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S_ : Shape := ⟨0, ![]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S2x1600000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S100000x128, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .i1⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The whole program's run, with its result named.

  The program is six segments: three stretches of host operations and, between them, the three tiled kernels. The
  contents of every buffer at each boundary are a fold through the program (`W0 … W6`: a stretch applies its operations,
  a kernel replaces its arrays by what its write-backs leave). Every weakly fair execution terminates without a fault
  with every unscoped buffer at the last boundary's contents `W6`; read at the result buffer this names the result, and
  read at an argument it walks back to the launch memory. The statement about the arguments alone is the frame; this is
  the same run with the result's buffer kept in the postcondition.
-/
import proofs.«146365_j46978352284507_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven arguments as launched. -/
theorem run_result : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Run

end
-- ==== Proof.GlueArgs.lean ====
/-
  The arguments at every boundary of the program.

  The program's buffer contents are folded from the launch memory through three stretches of host operations and three
  kernels. No host operation writes an argument's buffer, and a kernel either does not touch it or reads it through an
  input window, whose array it leaves as it found it. So at every boundary an argument's buffer still holds the launch
  contents. These are the facts the later boundaries' values are read against.
-/
import proofs.«146365_j46978352284507_1_alg».proof.Proof.Gen.KernelIdeal.Frame

set_option maxRecDepth 16384

noncomputable section

namespace Cert.KernelIdeal.Glue

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was. -/
local macro "unwritten" h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### After the first stretch -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by unwritten hostOps0).trans rfl
theorem W1_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) by unwritten hostOps0).trans rfl
theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by unwritten hostOps0).trans rfl
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by unwritten hostOps0).trans rfl
theorem W1_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by unwritten hostOps0).trans rfl
theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by unwritten hostOps0).trans rfl

/-! ### After the first kernel (the product's operands are its input windows; the others it does not touch) -/

theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ### After the second stretch, the second kernel, and into the third stretch -/

theorem W3_arg3 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by unwritten hostOps1).trans (W2_arg3 m ρ c)
theorem W3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by unwritten hostOps1).trans (W2_arg4 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by unwritten hostOps1).trans (W2_arg5 m ρ c)

theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ### The layer's input as the last kernel finds it: its second window's array, which that kernel leaves in place -/

theorem V5_arg0 (c : Dev nD) : V5 m ρ c main_arg0 = m ((c : Thread nD τ).loc main_arg0) :=
  ((W6_arr m ρ c 1).trans (((dat2 (V5 m ρ) c).arrAt_in 1 rfl _).trans (A_eq2 (V5 m ρ) c 1))).symm.trans (W6_main_arg0 m ρ c)

/-! ### The pre-activation array is the second kernel's input window: that kernel leaves it in place, and the third
    stretch does not write it -/

theorem W4_v43 (c : Dev nD) : W4 m ρ c (Proc.devRef .tc main_v43) = W3 m ρ c (Proc.devRef .tc main_v43) :=
  (W4_arr m ρ c 0).trans (((dat1 (V3 m ρ) c).arrAt_in 0 rfl _).trans (A_eq1 (V3 m ρ) c 0))
theorem W5_v43 (c : Dev nD) : W5 m ρ c (Proc.devRef .tc main_v43) = W3 m ρ c (Proc.devRef .tc main_v43) :=
  (show StableHlo.after hostOps2 (W4 m ρ c) (Proc.devRef .tc main_v43) = W4 m ρ c (Proc.devRef .tc main_v43) by unwritten hostOps2).trans (W4_v43 m ρ c)

end Cert.KernelIdeal.Glue

end
-- ==== Proof.GlueStages.lean ====
/-
  The host stretches of the program, read as the reference's own stages.

  Both programs compute the degree-normalised edge weights and the pre-activation array with the same host operations,
  applied to the same arguments; they differ only in where the dense product comes from. So the contents of the
  buffers the first two stretches write are, by unfolding the operations one after the other, the reference's stages of
  the launch contents of the arguments — given that the product's buffer holds the reference's product.
-/
import proofs.«146365_j46978352284507_1_alg».proof.Proof.GlueArgs
import proofs.«146365_j46978352284507_1_alg».proof.Proof.RefRead

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ### The first stretch: source rows, destination rows, edge weights -/

/-- The source rows: the first row of the edge list followed by every node's own index. -/
theorem W1_v3 (c : Dev nD) :
    W1 m ρ c (Proc.devRef .tc main_v3) = Cert.ReferenceIdeal.ReadP.val_main_v3 (F := F) (m ((c : Thread nD τ).loc main_arg6)) := by
  show StableHlo.after hostOps0 (W0 m ρ c) (Proc.devRef .tc main_v3) = _
  after_results
  rfl

/-- The destination rows: the second row of the edge list followed by every node's own index. -/
theorem W1_v6 (c : Dev nD) :
    W1 m ρ c (Proc.devRef .tc main_v6) = Cert.ReferenceIdeal.ReadP.val_main_v6 (F := F) (m ((c : Thread nD τ).loc main_arg6)) := by
  show StableHlo.after hostOps0 (W0 m ρ c) (Proc.devRef .tc main_v6) = _
  after_results
  rfl

set_option maxHeartbeats 8000000 in
/-- The edge weights: the product of the reciprocal square roots of the two end nodes' degrees. -/
theorem W1_v26 (c : Dev nD) :
    W1 m ρ c (Proc.devRef .tc main_v26) = Cert.ReferenceIdeal.ReadP.val_main_v26 (F := F) (m ((c : Thread nD τ).loc main_arg6)) := by
  show StableHlo.after hostOps0 (W0 m ρ c) (Proc.devRef .tc main_v26) = _
  after_results_simp
  rfl

theorem W2_v3 (c : Dev nD) :
    W2 m ρ c (Proc.devRef .tc main_v3) = Cert.ReferenceIdeal.ReadP.val_main_v3 (F := F) (m ((c : Thread nD τ).loc main_arg6)) :=
  (W2_of_ne m ρ c main_v3 (by decide)).trans (W1_v3 m ρ c)
theorem W2_v6 (c : Dev nD) :
    W2 m ρ c (Proc.devRef .tc main_v6) = Cert.ReferenceIdeal.ReadP.val_main_v6 (F := F) (m ((c : Thread nD τ).loc main_arg6)) :=
  (W2_of_ne m ρ c main_v6 (by decide)).trans (W1_v6 m ρ c)
theorem W2_v26 (c : Dev nD) :
    W2 m ρ c (Proc.devRef .tc main_v26) = Cert.ReferenceIdeal.ReadP.val_main_v26 (F := F) (m ((c : Thread nD τ).loc main_arg6)) :=
  (W2_of_ne m ρ c main_v26 (by decide)).trans (W1_v26 m ρ c)

/-! ### The second stretch: gather the product's rows, weigh them, add them up per destination, add the bias -/

set_option maxHeartbeats 8000000 in
/-- The pre-activation array, given that the product's buffer holds the reference's product. -/
theorem W3_v43 (c : Dev nD)
    (hxw : W2 m ρ c (Proc.devRef .tc main_v27) = Cert.ReferenceIdeal.ReadP.val_main_v27 (F := F) (m ((c : Thread nD τ).loc main_arg0)) (m ((c : Thread nD τ).loc main_arg1))) :
    W3 m ρ c (Proc.devRef .tc main_v43) = Cert.ReferenceIdeal.ReadP.val_main_v43 (F := F) (m ((c : Thread nD τ).loc main_arg0)) (m ((c : Thread nD τ).loc main_arg1)) (m ((c : Thread nD τ).loc main_arg2)) (m ((c : Thread nD τ).loc main_arg6)) := by
  show StableHlo.after hostOps1 (W2 m ρ c) (Proc.devRef .tc main_v43) = _
  after_results_simp
  rw [hxw, W2_v3 m ρ c, W2_v6 m ρ c, W2_v26 m ρ c, W2_arg2 m ρ c]
  rfl

end Cert.KernelIdeal.Glue

end
-- ==== Proof.Spec.lean ====
/-
  One entry of a normalised graph-convolution layer, over the extended reals.

  A node's pre-activation y is centred by the column mean μ, scaled by the reciprocal standard deviation ρ and the
  learned scale γ, shifted by β; the leaky rectifier keeps a positive value and multiplies any other by the slope a;
  the layer's input entry x is added back (the residual). Both programs of this certificate apply exactly this chain
  of operations, in this order, to every entry; they differ only in how the variance inside ρ is computed.
-/
import Idealize.ShloMosaic.PureOps.Ideal
import Idealize.ShloMosaic.Lib.ValueIdx

noncomputable section

namespace Cert.GcnNorm

open Idealize.ShloMosaic

/-- The normalised, scaled and shifted entry (y − μ) · ρ · γ + β. -/
def affine (y μ ρ γ β : EReal) : EReal := (y - μ) * ρ * γ + β

/-- The layer's output entry: the leaky rectifier with slope a of the affine entry, plus the residual x. The
    comparison is against the single-precision zero pattern, which denotes zero. -/
def finish (y μ ρ γ β a x : EReal) : EReal :=
  Scalar.select (Ideal.cmp .ogt (affine y μ ρ γ β) (Ideal.ofBits .f32 0x00000000#32))
    (affine y μ ρ γ β) (a * affine y μ ρ γ β) + x

end Cert.GcnNorm

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«146365_j46978352284507_1_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.ColumnStats.lean ====
/-
  The statistics of one column of the pre-activation array, over the extended reals.

  A column y of 100000 entries has the mean (Σ y) / n, n the single-precision pattern of 100000. Its variance is
  computed in one program as the mean of the squares minus the square of the mean and in the other as the mean of the
  squared deviations from the mean. For a column of real numbers the two agree; that is the one law that joins the two
  programs, and it is the only place where the finiteness of the inputs is used.
-/
import proofs.«146365_j46978352284507_1_alg».proof.Proof.Spec
import proofs.«146365_j46978352284507_1_alg».proof.Proof.LibBatchNorm

open scoped BigOperators

noncomputable section

namespace Cert.GcnNorm

open Idealize.ShloMosaic Cert.RealSums

/-- Column q of an array of 100000 rows and 128 columns. -/
def col (y : (⟨2, ![100000, 128]⟩ : Shape).Idx → EReal) (q : Fin 128) : Fin 100000 → EReal :=
  fun r => y (ValueIdx.ix2 r q)

/-- The number of rows, as the programs spell it: the single-precision pattern of 100000. -/
def count : EReal := Ideal.ofBits .f32 0x47C35000#32

/-- The stabiliser added to the variance, as the programs spell it: the single-precision pattern nearest 1e-5. -/
def eps : EReal := Ideal.ofBits .f32 0x3727C5AC#32

/-- The pattern 0x47C35000 denotes the real 100000. -/
theorem count_eq : count = ((100000 : ℝ) : EReal) := by
  unfold count
  simp [Ideal.ofBits, Ideal.ieee, -EReal.coe_mul]; norm_num

/-- The mean of a column. -/
def mean (y : Fin 100000 → EReal) : EReal := Ideal.div (∑ r, y r) count

/-- The variance as the mean of the squares minus the square of the mean. -/
def varSq (y : Fin 100000 → EReal) : EReal := Ideal.div (∑ r, y r * y r) count - mean y * mean y

/-- The variance as the mean of the squared deviations from the mean. -/
def varDev (y : Fin 100000 → EReal) : EReal := Ideal.div (∑ r, (y r - mean y) * (y r - mean y)) count

/-- For a column of reals the two variances agree. -/
theorem var_agree (y : Fin 100000 → EReal) (hy : ∀ r, IsReal (y r)) : varSq y = varDev y := by
  unfold varSq varDev mean
  rw [count_eq]
  exact Cert.BatchNorm.var_eq y hy (by simp) (by norm_num)

end Cert.GcnNorm

end
-- ==== Proof.GlueStats.lean ====
/-
  The third stretch of host operations, read at an index.

  After the second kernel the two accumulators hold the column sums and the column sums of squares. The third
  stretch divides both by the number of rows, subtracts the squared mean from the mean of the squares, adds eps, takes
  the reciprocal square root, and reshapes gamma, beta and the slope to rows. Read at column q these are: the sum over
  n; the reciprocal square root of (the sum of squares over n − the squared mean + eps); gamma, beta at q; the slope.
-/
import proofs.«146365_j46978352284507_1_alg».proof.Proof.GlueArgs
import proofs.«146365_j46978352284507_1_alg».proof.Proof.ColumnStats
import Idealize.ShloMosaic.Lib.Pipeline.Value
import Idealize.ShloMosaic.Lib.ValueIdx

set_option maxRecDepth 16384

noncomputable section

namespace Cert.KernelIdeal.Glue

open Idealize.ShloMosaic Idealize.ShloMosaic.TcCoe Idealize.SL.Sem Idealize.ShloMosaic.StableHlo Idealize.ShloMosaic.ValueIdx
open Cert.KernelIdeal Cert.KernelIdeal.Gen Cert.GcnNorm

variable (m : (ℓ : Loc nD τ sig) → Buf (Elt Ideal) ℓ) (ρ : Dev nD → PrngReg)

/-- The column sums as the second kernel leaves them, at column q. -/
abbrev sumAt (c : Dev nD) (q : Fin 128) : EReal := W4 m ρ c (Proc.devRef .tc main_v44_0) (ix2 (0 : Fin 1) q)
/-- The column sums of squares as the second kernel leaves them, at column q. -/
abbrev sumsqAt (c : Dev nD) (q : Fin 128) : EReal := W4 m ρ c (Proc.devRef .tc main_v44_1) (ix2 (0 : Fin 1) q)

/-- A scalar constant broadcast to a row, at any column, is the constant. -/
theorem bcast_const_row (w : BitVec 32) (q : Fin 128) :
    broadcastInDim S1x128 ![] bcast_S_S1x128 (constant (F := Ideal) S_ .f32 w) (ix2 (0 : Fin 1) q) = Ideal.ofBits .f32 w :=
  (broadcastInDim_apply _ bcast_S_S1x128 (constant (F := Ideal) S_ .f32 w) (ix2 (0 : Fin 1) q) ix0 (fun a => a.elim0)).trans rfl

/-- The mean at column q. -/
theorem V5_v46_at (c : Dev nD) (q : Fin 128) :
    (V5 m ρ c main_v46 (ix2 (0 : Fin 1) q) : EReal) = Ideal.div (sumAt m ρ c q) count := by
  have e : W5 m ρ c (Proc.devRef .tc main_v46)
      = Host.divf (W4 m ρ c (Proc.devRef .tc main_v44_0)) (broadcastInDim S1x128 ![] bcast_S_S1x128 (constant (F := Ideal) S_ .f32 0x47C35000#32)) := by
    show StableHlo.after hostOps2 (W4 m ρ c) (Proc.devRef .tc main_v46) = _
    after_results
  refine (congrFun e (ix2 (0 : Fin 1) q)).trans ?_
  show Ideal.div (sumAt m ρ c q) (broadcastInDim S1x128 ![] bcast_S_S1x128 (constant (F := Ideal) S_ .f32 0x47C35000#32) (ix2 (0 : Fin 1) q)) = _
  rw [bcast_const_row]
  rfl

/-- The reciprocal standard deviation at column q. -/
theorem V5_v53_at (c : Dev nD) (q : Fin 128) :
    (V5 m ρ c main_v53 (ix2 (0 : Fin 1) q) : EReal)
      = Ideal.rsqrt (Ideal.div (sumsqAt m ρ c q) count - Ideal.div (sumAt m ρ c q) count * Ideal.div (sumAt m ρ c q) count + eps) := by
  have e : W5 m ρ c (Proc.devRef .tc main_v53)
      = Host.rsqrt (addf (subf (Host.divf (W4 m ρ c (Proc.devRef .tc main_v44_1)) (broadcastInDim S1x128 ![] bcast_S_S1x128 (constant (F := Ideal) S_ .f32 0x47C35000#32)))
          (mulf (Host.divf (W4 m ρ c (Proc.devRef .tc main_v44_0)) (broadcastInDim S1x128 ![] bcast_S_S1x128 (constant (F := Ideal) S_ .f32 0x47C35000#32)))
                (Host.divf (W4 m ρ c (Proc.devRef .tc main_v44_0)) (broadcastInDim S1x128 ![] bcast_S_S1x128 (constant (F := Ideal) S_ .f32 0x47C35000#32)))))
          (broadcastInDim S1x128 ![] bcast_S_S1x128 (constant (F := Ideal) S_ .f32 0x3727C5AC#32))) := by
    show StableHlo.after hostOps2 (W4 m ρ c) (Proc.devRef .tc main_v53) = _
    after_results
  refine (congrFun e (ix2 (0 : Fin 1) q)).trans ?_
  show Ideal.rsqrt (Ideal.div (sumsqAt m ρ c q) (broadcastInDim S1x128 ![] bcast_S_S1x128 (constant (F := Ideal) S_ .f32 0x47C35000#32) (ix2 (0 : Fin 1) q))
      - Ideal.div (sumAt m ρ c q) (broadcastInDim S1x128 ![] bcast_S_S1x128 (constant (F := Ideal) S_ .f32 0x47C35000#32) (ix2 (0 : Fin 1) q))
        * Ideal.div (sumAt m ρ c q) (broadcastInDim S1x128 ![] bcast_S_S1x128 (constant (F := Ideal) S_ .f32 0x47C35000#32) (ix2 (0 : Fin 1) q))
      + broadcastInDim S1x128 ![] bcast_S_S1x128 (constant (F := Ideal) S_ .f32 0x3727C5AC#32) (ix2 (0 : Fin 1) q)) = _
  rw [bcast_const_row, bcast_const_row]
  rfl

/-- A vector of 128 entries cast to one row, at column q, is the vector's entry q. -/
theorem row_of_vec (v : S128.Idx → EReal) (q : Fin 128) :
    shapeCast S1x128 v shapeCasts_S128_S1x128 (ix2 (0 : Fin 1) q) = v (ix1 q) := by
  refine (shapeCast_addUnit_apply ![128] v shapeCasts_S128_S1x128 (ix2 (0 : Fin 1) q)).trans ?_
  exact congrArg v (funext fun a => Fin.ext (by match a with | ⟨0, _⟩ => rfl))

/-- Gamma as the last kernel finds it, at column q. -/
theorem V5_v54_at (c : Dev nD) (q : Fin 128) :
    (V5 m ρ c main_v54 (ix2 (0 : Fin 1) q) : EReal) = m ((c : Thread nD τ).loc main_arg3) (ix1 q) := by
  have e : W5 m ρ c (Proc.devRef .tc main_v54) = shapeCast S1x128 (W4 m ρ c (Proc.devRef .tc main_arg3)) shapeCasts_S128_S1x128 := by
    show StableHlo.after hostOps2 (W4 m ρ c) (Proc.devRef .tc main_v54) = _
    after_results
    rfl
  refine (congrFun e (ix2 (0 : Fin 1) q)).trans ?_
  rw [W4_arg3 m ρ c]
  exact row_of_vec _ q

/-- Beta as the last kernel finds it, at column q. -/
theorem V5_v55_at (c : Dev nD) (q : Fin 128) :
    (V5 m ρ c main_v55 (ix2 (0 : Fin 1) q) : EReal) = m ((c : Thread nD τ).loc main_arg4) (ix1 q) := by
  have e : W5 m ρ c (Proc.devRef .tc main_v55) = shapeCast S1x128 (W4 m ρ c (Proc.devRef .tc main_arg4)) shapeCasts_S128_S1x128 := by
    show StableHlo.after hostOps2 (W4 m ρ c) (Proc.devRef .tc main_v55) = _
    after_results
    rfl
  refine (congrFun e (ix2 (0 : Fin 1) q)).trans ?_
  rw [W4_arg4 m ρ c]
  exact row_of_vec _ q

/-- The slope as the last kernel finds it: the scalar, cast to a one-by-one array. -/
theorem V5_v56_at (c : Dev nD) :
    (V5 m ρ c main_v56 (ix2 (0 : Fin 1) (0 : Fin 1)) : EReal) = m ((c : Thread nD τ).loc main_arg5) ix0 := by
  have e : W5 m ρ c (Proc.devRef .tc main_v56) = shapeCast S1x1 (W4 m ρ c (Proc.devRef .tc main_arg5)) shapeCasts_S_S1x1 := by
    show StableHlo.after hostOps2 (W4 m ρ c) (Proc.devRef .tc main_v56) = _
    after_results
    rfl
  refine (congrFun e (ix2 (0 : Fin 1) (0 : Fin 1))).trans ?_
  rw [W4_arg5 m ρ c]
  exact shapeCast_apply _ shapeCasts_S_S1x1 (ix2 (0 : Fin 1) (0 : Fin 1)) ix0 (by decide)

end Cert.KernelIdeal.Glue

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.MatmulRegion.lean ====
/-
  The first region of the layer: the product of the node features with the weight matrix, tile by tile.

  The region walks the 100000 rows of the feature array in 20 tiles of 5000 rows. At each tile it multiplies the tile
  (5000 × 128) by the whole weight matrix (128 × 128) into a zero block and writes the block back as the same 5000 rows
  of the result. Over the extended reals the change of float format in front of the product is the identity, so entry
  (r, q) of the result is the sum over k of feature (r, k) times weight (k, q): the row r is written by tile r / 5000
  and by no other, and that tile reads exactly row r of the features and all of the weights.

  The statements are generic in the contents the region finds in its buffers on entry.
-/
import proofs.«146365_j46978352284507_1_alg».proof.Proof.Gen.KernelIdeal.Frame
import proofs.«146365_j46978352284507_1_alg».proof.Proof.LibPlainDot
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.MatmulRegion

open Cert.KernelIdeal Idealize.ShloMosaic.ValueIdx

/-- The product of a 100000 × 128 array with a 128 × 128 array, entry by entry: entry i is the sum over the contracted
    coordinate k of (row of i, k) times (k, column of i). -/
def rowsTimes (A : S100000x128.Idx → EReal) (W : S128x128.Idx → EReal) : S100000x128.Idx → EReal :=
  fun i => ∑ k : Fin 128, A (ix2 (i 0 : Fin 100000) k) * W (ix2 k (i 1 : Fin 128))

/-- The product at entry (r, q). -/
theorem rowsTimes_apply (A : S100000x128.Idx → EReal) (W : S128x128.Idx → EReal) (r : Fin 100000) (q : Fin 128) :
    rowsTimes A W (ix2 r q) = ∑ k : Fin 128, A (ix2 r k) * W (ix2 k q) := rfl

/-- The zero offsets of a whole-buffer access, as a constant function. -/
theorem hz : (![0, 0] : Fin 2 → Nat) = fun _ => 0 := funext fun a => by fin_cases a <;> rfl

/-! ## One tile -/

/-- What the body stores at entry (p, q) of its tile: the sum over k of tile (p, k) times weight (k, q). The two
    format changes are the identity on extended reals and the accumulator starts at zero. -/
theorem pay_apply (x0 : Vec Ideal S5000x128 .f32) (x1 : Vec Ideal S128x128 .f32) (p : Fin 5000) (q : Fin 128) :
    Gen.k0_pay1 x0 x1 (ix2 p q) = ∑ k : Fin 128, x0 (ix2 p k) * x1 (ix2 k q) := by
  unfold Gen.k0_pay1
  exact Cert.PlainDot.matmul_zero_apply dot_S5000x128_S128x128_S5000x128_1_0_0_1_n_n rfl rfl rfl rfl rfl rfl none _ _ p q

/-- If row p of the tile is row (i 0) of the big array A and the second block is W, the stored entry (p, q) is entry i
    of the product of A with W, for any index i whose column is q. -/
theorem pay_eq_rowsTimes (x0 : Vec Ideal S5000x128 .f32) (x1 : Vec Ideal S128x128 .f32)
    (A : S100000x128.Idx → EReal) (W : S128x128.Idx → EReal) (p : Fin 5000) (q : Fin 128) (i : S100000x128.Idx)
    (h0 : ∀ k : Fin 128, x0 (ix2 p k) = A (ix2 (i 0 : Fin 100000) k))
    (h1 : ∀ k : Fin 128, x1 (ix2 k q) = W (ix2 k (i 1 : Fin 128))) :
    Gen.k0_pay1 x0 x1 (ix2 p q) = rowsTimes A W i := by
  rw [pay_apply]
  exact Finset.sum_congr rfl fun k _ => by rw [h0 k, h1 k]

/-! ## The tiles against the arrays -/

variable (V : (c : Dev nD) → (b : Ref sig .tc) → Buf (Elt Ideal) ((c : Thread nD τ).loc b))

/-- Where each window's block sits at tile t: the features' and the result's blocks are block t along the rows, the
    weights' block is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is block t of the product of the features with the weights, as the region finds them. -/
theorem flushed_eq (c : Dev nD) (t : Fin cfg0.N) :
    (Gen.dat0 (F := Ideal) V c).flushed 2 t
      = ((cfg0.win 2).blk t).view.read (Elt Ideal) (rowsTimes (V c main_arg0) (V c main_arg1)) := by
  show (cfg0.win 2).cut (grid0.coords t) ((Gen.dat0 (F := Ideal) V c).after 2 t) = _
  rw [Gen.after0_2]
  unfold Gen.out0_2
  rw [View.canon_unit_zero hz]
  simp only [View.ld_unit_zero (S := S5000x128) hz, View.ld_unit_zero (S := S128x128) hz]
  obtain ⟨e00, e01, e10, e11, e20, e21⟩ := idx_facts t
  refine funext fun (j : S5000x128.Idx) => ?_
  obtain ⟨p, q, rfl⟩ : ∃ (p : Fin 5000) (q : Fin 128), j = ix2 p q := ⟨j 0, j 1, eq_ix2 j⟩
  show Gen.k0_pay1 (Gen.iblk0 V c 0 t) (Gen.iblk0 V c 1 t) (ix2 p q)
    = rowsTimes (V c main_arg0) (V c main_arg1) (((cfg0.win 2).blk t).view.emb (ix2 p q))
  refine pay_eq_rowsTimes (Gen.iblk0 V c 0 t) (Gen.iblk0 V c 1 t) (V c main_arg0) (V c main_arg1) p q
    (((cfg0.win 2).blk t).view.emb (ix2 p q)) (fun k => ?_) (fun k => ?_)
  · show V c main_arg0 (((cfg0.win 0).blk t).view.emb (ix2 p k)) = V c main_arg0 _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · show V c main_arg1 (((cfg0.win 1).blk t).view.emb (ix2 k q)) = V c main_arg1 _
    refine congrArg (V c main_arg1) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the result lies in tile t's block iff each coordinate lies in the block's range on its axis. -/
theorem mem_blk (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v27).slice (win0_2.rect t)).set ↔ _
  rw [View.set_slice_whole, Rect.mem_set_unit]
  exact Iff.rfl

/-- Every index of the result is in some tile's block: row r is in tile r / 5000. -/
theorem cover (i : S100000x128.Idx) :
    ∃ t : Fin cfg0.N, (cfg0.win 2).flush t = true ∧ i ∈ ((cfg0.win 2).blk t).view.set := by
  have hN : cfg0.N = 20 := Gen.N_0
  have hi0 : (i 0).val < 100000 := (i 0).isLt
  have hi1 : (i 1).val < 128 := (i 1).isLt
  refine ⟨⟨(i 0).val / 5000, by rw [hN]; omega⟩, Gen.flush0_2 _, ?_⟩
  obtain ⟨-, -, -, -, e20, e21⟩ := idx_facts ⟨(i 0).val / 5000, by rw [hN]; omega⟩
  rw [mem_blk]
  intro a
  match a with
  | ⟨0, _⟩ =>
    show win0_2.index ⟨(i 0).val / 5000, _⟩ (0 : Fin 2) * 5000 ≤ (i 0).val
      ∧ (i 0).val < win0_2.index ⟨(i 0).val / 5000, _⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, _⟩ (1 : Fin 2) * 128 ≤ (i 1).val
      ∧ (i 1).val < win0_2.index ⟨(i 0).val / 5000, _⟩ (1 : Fin 2) * 128 + 128
    rw [e21]
    omega

/-! ## The region's result -/

/-- After the region the result array holds the product of the features with the weights, as the region found them. -/
theorem array_eq (c : Dev nD) :
    (Gen.dat0 (F := Ideal) V c).arrAt 2 cfg0.N = rowsTimes (V c main_arg0) (V c main_arg1) :=
  (Gen.dat0 (F := Ideal) V c).arrAt_eq_of_cover 2 (rowsTimes (V c main_arg0) (V c main_arg1))
    (fun t _ => flushed_eq V c t) (cover)

/-- Entry (r, q) of the result is the sum over k of feature (r, k) times weight (k, q). -/
theorem value (c : Dev nD) (r : Fin 100000) (q : Fin 128) :
    (Gen.dat0 (F := Ideal) V c).arrAt 2 cfg0.N (ix2 r q) = rowsTimes (V c main_arg0) (V c main_arg1) (ix2 r q) :=
  congrFun (array_eq V c) (ix2 r q)

/-- The same entry against any two arrays that are the features and the weights the region finds: the form to cite
    once those contents are known. -/
theorem value_of (c : Dev nD) (A : S100000x128.Idx → EReal) (W : S128x128.Idx → EReal)
    (hA : V c main_arg0 = A) (hW : V c main_arg1 = W) (r : Fin 100000) (q : Fin 128) :
    (Gen.dat0 (F := Ideal) V c).arrAt 2 cfg0.N (ix2 r q) = ∑ k : Fin 128, A (ix2 r k) * W (ix2 k q) := by
  subst hA hW
  exact value V c r q

end Cert.KernelIdeal.MatmulRegion

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.LibStatsValue.lean ====
/-
  The values a matrix product with running column statistics computes, read entry by entry over the extended reals:
  a product accumulated into the zero block, at an entry, is the sum over the contracted coordinate of the products of
  the entries; the sum of a tile over its rows, kept as a one-row array, at a column, is the sum of that column.
-/
import Idealize.ShloMosaic.PureOps.Ideal
import Idealize.ShloMosaic.PureOps.Ideal.Laws
import Idealize.ShloMosaic.Lib.ValueIdx
import Idealize.ShloMosaic.Lib.Pipeline.Value
import proofs.«146365_j46978352284507_1_alg».proof.Proof.LibTileSum
import proofs.«146365_j46978352284507_1_alg».proof.Proof.LibBatchNorm

noncomputable section

namespace Cert.StatsValue

open Idealize.ShloMosaic Idealize.ShloMosaic.ValueIdx

/-- An m×k by k×n product (contracting the first operand's columns against the second's rows) accumulated into the
    zero block, read at entry (a, b): the sum over the contracted coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum of an m×n tile over its rows, cast from a vector to a one-row array, read at column q: the sum of the
    tile's column q. -/
theorem colsum_row_apply {m n : ℕ} (h : (⟨2, ![m, n]⟩ : Shape).Reduces [0] ⟨1, ![n]⟩)
    (hc : (⟨1, ![n]⟩ : Shape).ShapeCasts ⟨2, ![1, n]⟩) (hφ : FKind.Formats .f32)
    (hacc : (0x00000000#32 : BitVec FTy.f32.bits) = FKind.add.neutral .f32 hφ)
    (src : FVec Ideal ⟨2, ![m, n]⟩ .f32) (z : Fin 1) (q : Fin n) :
    shapeCast ⟨2, ![1, n]⟩ (multiReduction (F := Ideal) .add [0] ⟨1, ![n]⟩ src 0x00000000#32 h hφ hacc) hc (ix2 z q)
      = ∑ r : Fin m, src (ix2 r q) := by
  refine (shapeCast_addUnit_apply ![n] _ hc (ix2 z q)).trans ?_
  refine (Ideal.multiReduction_add_single src _ h hφ hacc _).trans ?_
  show ∑ r : Fin m, src (h.lift (fun a => ix2 z q a.succ) r) = _
  refine Finset.sum_congr rfl fun r _ => congrArg src ?_
  funext ax; apply Fin.ext
  match ax with
  | ⟨0, _⟩ => rfl
  | ⟨1, _⟩ => rfl

/-- A running sum over N tiles of T rows each — zero plus the first tile's sum after the first step, the next tile's sum
    added at every further step — holds, after the last step, the sum over all N·T rows: row T·s + j of the whole is
    row j of tile s. -/
theorem acc_tiles_eq_sum (N T : ℕ) (hN : 0 < N) (acc f : ℕ → EReal)
    (h0 : acc 0 = 0 + ∑ j : Fin T, f (T * 0 + j.val))
    (hs : ∀ n, n + 1 < N → acc (n + 1) = acc n + ∑ j : Fin T, f (T * (n + 1) + j.val)) :
    acc (N - 1) = ∑ r : Fin (N * T), f r.val := by
  rw [Cert.BatchNorm.acc_last_eq_sum acc (fun t => ∑ j : Fin T, f (T * t + j.val)) N hN h0 hs, Cert.TileSum.sum_tiles]

end Cert.StatsValue

end
-- ==== Proof.ReduceRegion.lean ====
/-
  The column statistics of the second region, read entry by entry over the extended reals.

  The region walks the 100000×128 array in 20 tiles of 5000 rows and keeps two one-row blocks across the walk: at the
  first tile both rows are set to zero, and at every tile (the first included) the tile's column sums are added to the
  first row and the column sums of its squares to the second. Neither row is written back before the last tile. So after
  tile t the first row holds, at column q, zero plus the sums of column q over tiles 0 … t, and after the last tile the
  sum of column q over all 100000 rows — row 5000·s + j of the array being row j of tile s —; likewise the second row
  with every entry squared. Only commutativity and associativity of the extended reals' addition are used (the
  regrouping of one long sum into tiles), so infinities need no care here.

  The steps: what each of the two control cases leaves in each row, as the body's arithmetic applied to the tile and to
  the row carried in (or to the zero row); that arithmetic at a column; a tile's entry as an entry of the array; the
  running total by induction over the tiles; and the final array, which the last tile's write-back fills whole.
-/
import proofs.«146365_j46978352284507_1_alg».proof.Proof.Gen.KernelIdeal.Frame
import proofs.«146365_j46978352284507_1_alg».proof.Proof.LibStatsValue
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.ReduceRegion

open Cert.KernelIdeal Cert.KernelIdeal.Gen

/-- Entry (r, q) of the array the region reduces over its rows, as the region finds it: an extended real. -/
abbrev entry (V : (c : Dev nD) → (b : Ref sig .tc) → Buf (Elt Ideal) ((c : Thread nD τ).loc b)) (c : Dev nD)
    (r : Fin 100000) (q : Fin 128) : EReal := V c main_v43 (ix2 r q)

/-! ## What each control case leaves in the two carried rows

Every load and store of the body is of a whole buffer at zero offsets, so a row after the body is the last value
stored into it: the body's sum (or sum of squares) payload of the tile and of the row as it was read — the row carried
in from the tile before, or, at the first tile, the zero row stored just before the read. -/

theorem hz : (![0, 0] : Fin 2 → Nat) = fun _ => 0 := funext fun a => by fin_cases a <;> rfl

variable {F : FTy → Type} [FloatOps F]

/-- Past the first tile the first row becomes the row carried in plus the tile's column sums. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero (S := S1x128) hz]
  simp only [View.readAt_eq_ld, h1.read_unread, h2.read_unread, View.ld_unit_zero (S := S5000x128) hz,
    View.ld_unit_zero (S := S1x128) hz]

/-- Past the first tile the second row becomes the row carried in plus the column sums of the tile's squares. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero (S := S1x128) hz]
  simp only [View.readAt_eq_ld, h1.read_unread, h3.read_unread, View.ld_unit_zero (S := S5000x128) hz,
    View.ld_unit_zero (S := S1x128) hz]

/-- At the first tile the first row becomes the zero row plus the tile's column sums: the zero row is stored, read
    back, and added to. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay2 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- At the first tile the second row becomes the zero row plus the column sums of the tile's squares. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay3 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-! ## The body's arithmetic at a column, over the extended reals -/

section AtIdeal

/-- The row stored at the first tile is zero at every column (the first carried row's, -/
theorem zero_row_apply (j : S1x128.Idx) : k1_pay2 (F := Ideal) j = 0 := Ideal.ofBits_zero_f32
/-- and the second's). -/
theorem zero_row_apply' (j : S1x128.Idx) : k1_pay3 (F := Ideal) j = 0 := Ideal.ofBits_zero_f32

/-- The new first row at column q: the row read, at q, plus the sum of the tile's column q over its 5000 rows (the
    shape casts of the tile and of the row are the identity; the reduction over the row axis, kept as one row, is the
    column's sum). -/
theorem pay4_apply (x : FVec Ideal S5000x128 .f32) (a : FVec Ideal S1x128 .f32) (q : Fin 128) :
    k1_pay4 x a (ix2 (0 : Fin 1) q) = a (ix2 (0 : Fin 1) q) + ∑ r : Fin 5000, x (ix2 r q) := by
  unfold k1_pay4 k1_pay1
  simp only [shapeCast_self]
  exact congrArg (a (ix2 (0 : Fin 1) q) + ·)
    (Cert.StatsValue.colsum_row_apply reduces_S5000x128_S128 shapeCasts_S128_S1x128 (.inl rfl) rfl x 0 q)

/-- The new second row at column q: the row read, at q, plus the sum of the squares of the tile's column q. -/
theorem pay5_apply (x : FVec Ideal S5000x128 .f32) (a : FVec Ideal S1x128 .f32) (q : Fin 128) :
    k1_pay5 x a (ix2 (0 : Fin 1) q) = a (ix2 (0 : Fin 1) q) + ∑ r : Fin 5000, x (ix2 r q) * x (ix2 r q) := by
  unfold k1_pay5 k1_pay1
  simp only [shapeCast_self]
  exact congrArg (a (ix2 (0 : Fin 1) q) + ·)
    ((Cert.StatsValue.colsum_row_apply reduces_S5000x128_S128 shapeCasts_S128_S1x128 (.inl rfl) rfl (mulf x x) 0 q).trans
      (Finset.sum_congr rfl fun r _ => mulf_apply x x (ix2 r q)))

/-! ## A tile's entry is an entry of the array -/

/-- Tile t of the reduced array is block (t, 0): decided over the 20 tiles. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

variable (V : (c : Dev nD) → (b : Ref sig .tc) → Buf (Elt Ideal) ((c : Thread nD τ).loc b))

/-- Row j, column q of tile t is row 5000·t + j, column q of the array. -/
theorem iblk_apply (c : Dev nD) (t : Fin cfg1.N) (j : Fin 5000) (q : Fin 128) (h : 5000 * t.val + j.val < 100000) :
    iblk1 V c 0 t (ix2 j q) = entry V c ⟨5000 * t.val + j.val, h⟩ q := by
  obtain ⟨e0, e1⟩ := idx_facts t
  unfold iblk1
  rw [View.read_apply]
  show V c main_v43 _ = V c main_v43 _
  refine congrArg (V c main_v43) ?_
  funext a
  apply Fin.ext
  match a with
  | ⟨0, _⟩ => show win1_0.index t (0 : Fin 2) * 5000 + 1 * j.val = 5000 * t.val + j.val; rw [e0]; omega
  | ⟨1, _⟩ => show win1_0.index t (1 : Fin 2) * 128 + 1 * q.val = q.val; rw [e1]; omega

end AtIdeal

/-! ## The running totals -/

section Total

variable (V : (c : Dev nD) → (b : Ref sig .tc) → Buf (Elt Ideal) ((c : Thread nD τ).loc b))

/-- After the first tile the first row is the sum payload of that tile and the zero row; -/
theorem fst_zero (c : Dev nD) (h : 0 < cfg1.N) :
    (outsAt1 (F := Ideal) V c 0 h).1 = k1_pay4 (iblk1 V c 0 ⟨0, h⟩) (k1_pay2 (F := Ideal)) :=
  (congrArg Prod.fst (outsAt1_A V c ⟨0, h⟩ rfl)).trans
    (out_A_1 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      ((hcond1_0 ⟨0, h⟩).mpr rfl) (iblk1 V c 0 ⟨0, h⟩))

/-- the second row the squares payload of that tile and the zero row. -/
theorem snd_zero (c : Dev nD) (h : 0 < cfg1.N) :
    (outsAt1 (F := Ideal) V c 0 h).2 = k1_pay5 (iblk1 V c 0 ⟨0, h⟩) (k1_pay3 (F := Ideal)) :=
  (congrArg Prod.snd (outsAt1_A V c ⟨0, h⟩ rfl)).trans
    (out_A_2 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      ((hcond1_0 ⟨0, h⟩).mpr rfl) (iblk1 V c 0 ⟨0, h⟩))

/-- After a later tile the first row is the sum payload of that tile and the first row after the tile before (no tile
    but the first is a multiple of 20 below 20, so the rows are not reset again); -/
theorem fst_succ (c : Dev nD) (n : ℕ) (h : n + 1 < cfg1.N) :
    (outsAt1 (F := Ideal) V c (n + 1) h).1
      = k1_pay4 (iblk1 V c 0 ⟨n + 1, h⟩) (outsAt1 V c n (Nat.lt_of_succ_lt h)).1 := by
  have hN : cfg1.N = 20 := N_1
  have hB : ¬(⟨n + 1, h⟩ : Fin cfg1.N).val % 20 = 0 := by dsimp only; omega
  exact (congrArg Prod.fst (outsAt1_B V c ⟨n + 1, h⟩ hB)).trans
    (out_B_1 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩)
      (outsAt1 V c n (Nat.lt_of_succ_lt h)).1 (outsAt1 V c n (Nat.lt_of_succ_lt h)).2)

/-- the second row the squares payload of that tile and the second row after the tile before. -/
theorem snd_succ (c : Dev nD) (n : ℕ) (h : n + 1 < cfg1.N) :
    (outsAt1 (F := Ideal) V c (n + 1) h).2
      = k1_pay5 (iblk1 V c 0 ⟨n + 1, h⟩) (outsAt1 V c n (Nat.lt_of_succ_lt h)).2 := by
  have hN : cfg1.N = 20 := N_1
  have hB : ¬(⟨n + 1, h⟩ : Fin cfg1.N).val % 20 = 0 := by dsimp only; omega
  exact (congrArg Prod.snd (outsAt1_B V c ⟨n + 1, h⟩ hB)).trans
    (out_B_2 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩)
      (outsAt1 V c n (Nat.lt_of_succ_lt h)).1 (outsAt1 V c n (Nat.lt_of_succ_lt h)).2)

/-- Column q of the reduced array with g applied to every entry, continued by zero past the last row: a function on
    the naturals, the form the tile regrouping is stated in. -/
def col (c : Dev nD) (q : Fin 128) (g : EReal → EReal) (r : ℕ) : EReal :=
  if h : r < 100000 then g (entry V c ⟨r, h⟩ q) else 0

/-- What a carried row holds at column q after tile n (zero past the grid). -/
def carried (o : (n : ℕ) → n < cfg1.N → FVec Ideal S1x128 .f32) (q : Fin 128) (n : ℕ) : EReal :=
  if h : n < cfg1.N then o n h (ix2 (0 : Fin 1) q) else 0

/-- A row that after the first tile is a payload of that tile and a zero row, and after every later tile the same
    payload of that tile and of itself after the tile before — the payload adding, at column q, the sum over the
    tile's rows of g of the entries —, holds at column q after the last tile the sum of g of column q over all 100000
    rows: the 20 tile sums regrouped into one sum, row 5000·s + j of the array being row j of tile s. -/
theorem running_total (c : Dev nD) (q : Fin 128) (g : EReal → EReal)
    (pay : FVec Ideal S5000x128 .f32 → FVec Ideal S1x128 .f32 → FVec Ideal S1x128 .f32)
    (z : FVec Ideal S1x128 .f32)
    (hpay : ∀ x a, pay x a (ix2 (0 : Fin 1) q) = a (ix2 (0 : Fin 1) q) + ∑ r : Fin 5000, g (x (ix2 r q)))
    (hzero : z (ix2 (0 : Fin 1) q) = 0)
    (o : (n : ℕ) → n < cfg1.N → FVec Ideal S1x128 .f32)
    (o0 : ∀ h : 0 < cfg1.N, o 0 h = pay (iblk1 V c 0 ⟨0, h⟩) z)
    (os : ∀ (n : ℕ) (h : n + 1 < cfg1.N), o (n + 1) h = pay (iblk1 V c 0 ⟨n + 1, h⟩) (o n (Nat.lt_of_succ_lt h)))
    (h19 : 19 < cfg1.N) :
    o 19 h19 (ix2 (0 : Fin 1) q) = ∑ r : Fin 100000, g (entry V c r q) := by
  have hN : cfg1.N = 20 := N_1
  have blk : ∀ t : Fin cfg1.N, ∑ j : Fin 5000, g (iblk1 V c 0 t (ix2 j q)) = ∑ j : Fin 5000, col V c q g (5000 * t.val + j.val) := by
    intro t
    refine Finset.sum_congr rfl fun j _ => ?_
    have hb : 5000 * t.val + j.val < 100000 := by have := t.isLt; have := j.isLt; omega
    unfold col
    rw [dif_pos hb, iblk_apply V c t j q hb]
  have h0 : carried o q 0 = 0 + ∑ j : Fin 5000, col V c q g (5000 * 0 + j.val) := by
    have h : 0 < cfg1.N := by omega
    unfold carried
    rw [dif_pos h, o0 h, hpay (iblk1 V c 0 ⟨0, h⟩) z, hzero, blk ⟨0, h⟩]
  have hs : ∀ n, n + 1 < 20 → carried o q (n + 1) = carried o q n + ∑ j : Fin 5000, col V c q g (5000 * (n + 1) + j.val) := by
    intro n hn
    have h : n + 1 < cfg1.N := by omega
    unfold carried
    rw [dif_pos h, dif_pos (Nat.lt_of_succ_lt h), os n h, hpay (iblk1 V c 0 ⟨n + 1, h⟩) (o n (Nat.lt_of_succ_lt h)), blk ⟨n + 1, h⟩]
  have key := Cert.StatsValue.acc_tiles_eq_sum 20 5000 (by decide) (carried o q) (col V c q g) h0 hs
  have e19 : carried o q (20 - 1) = o 19 h19 (ix2 (0 : Fin 1) q) := dif_pos h19
  rw [← e19, key]
  show ∑ r : Fin 100000, col V c q g r.val = _
  refine Finset.sum_congr rfl fun r _ => ?_
  unfold col
  rw [dif_pos r.isLt]

end Total

/-! ## The two result arrays

Each result is one block, (0, 0), at every tile, and only the last tile writes it back: the array ends holding what the
carried row holds after the last tile. -/

section Final

variable (V : (c : Dev nD) → (b : Ref sig .tc) → Buf (Elt Ideal) ((c : Thread nD τ).loc b))

theorem lt19 : 19 < cfg1.N := by rw [show cfg1.N = 20 from N_1]; decide

/-- The last tile, the only one after which the two rows are written back. -/
def t19 : Fin cfg1.N := ⟨19, lt19⟩

/-- The one write-back of the first row writes the row as the last tile left it: block (0, 0) of a 1×128 array read
    through zero offsets is the array. -/
theorem flushed_fst (c : Dev nD) (t : Fin cfg1.N) (hf : (cfg1.win 1).flush t = true) :
    (dat1 (F := Ideal) V c).flushed 1 t
      = ((cfg1.win 1).blk t).view.read (Elt Ideal)
          ((outsAt1 V c 19 lt19).1 : Buf (Elt Ideal) ((c : Thread nD τ).loc main_v44_0)) := by
  have hN : cfg1.N = 20 := N_1
  have h19 : t.val = 19 := by have := (flush1_1 t).mp hf; have := t.isLt; omega
  obtain rfl : t = t19 := Fin.ext h19
  show (cfg1.win 1).cut (grid1.coords t19) ((dat1 V c).after 1 t19) = _
  rw [after1_1]
  have hz' : (fun a => win1_1.index t19 a * main_v44_0.ty.shape.size a) = fun _ => 0 :=
    funext fun a => by fin_cases a <;> decide +kernel
  exact (Memref.read_access_unit_zero (Elt Ideal) main_v44_0 hz' (fun a => by rw [congrFun hz' a]; simp)
    ((outsAt1 V c 19 lt19).1 : Buf (Elt Ideal) ((c : Thread nD τ).loc main_v44_0))).symm

/-- So the first result array ends holding the first row after the last tile: that tile's block covers the array. -/
theorem final_fst (c : Dev nD) :
    (dat1 (F := Ideal) V c).arrAt 1 cfg1.N
      = ((outsAt1 V c 19 lt19).1 : Buf (Elt Ideal) ((c : Thread nD τ).loc main_v44_0)) :=
  (dat1 V c).arrAt_eq_of_cover 1 _ (flushed_fst V c) fun i =>
    ⟨t19, (flush1_1 t19).mpr rfl, by
      show i ∈ ((View.whole main_v44_0).slice (win1_1.rect t19)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index t19 0 * win1_1.size 0 ≤ (i 0 : Nat) ∧ (i 0 : Nat) < win1_1.index t19 0 * win1_1.size 0 + win1_1.xsize (grid1.coords t19) 0
        rw [show win1_1.index t19 0 * win1_1.size 0 = 0 from by decide +kernel, show win1_1.xsize (grid1.coords t19) 0 = 1 from by decide +kernel]; omega
      | ⟨1, _⟩ =>
        show win1_1.index t19 1 * win1_1.size 1 ≤ (i 1 : Nat) ∧ (i 1 : Nat) < win1_1.index t19 1 * win1_1.size 1 + win1_1.xsize (grid1.coords t19) 1
        rw [show win1_1.index t19 1 * win1_1.size 1 = 0 from by decide +kernel, show win1_1.xsize (grid1.coords t19) 1 = 128 from by decide +kernel]; omega⟩

/-- The one write-back of the second row writes the row as the last tile left it. -/
theorem flushed_snd (c : Dev nD) (t : Fin cfg1.N) (hf : (cfg1.win 2).flush t = true) :
    (dat1 (F := Ideal) V c).flushed 2 t
      = ((cfg1.win 2).blk t).view.read (Elt Ideal)
          ((outsAt1 V c 19 lt19).2 : Buf (Elt Ideal) ((c : Thread nD τ).loc main_v44_1)) := by
  have hN : cfg1.N = 20 := N_1
  have h19 : t.val = 19 := by have := (flush1_2 t).mp hf; have := t.isLt; omega
  obtain rfl : t = t19 := Fin.ext h19
  show (cfg1.win 2).cut (grid1.coords t19) ((dat1 V c).after 2 t19) = _
  rw [after1_2]
  have hz' : (fun a => win1_2.index t19 a * main_v44_1.ty.shape.size a) = fun _ => 0 :=
    funext fun a => by fin_cases a <;> decide +kernel
  exact (Memref.read_access_unit_zero (Elt Ideal) main_v44_1 hz' (fun a => by rw [congrFun hz' a]; simp)
    ((outsAt1 V c 19 lt19).2 : Buf (Elt Ideal) ((c : Thread nD τ).loc main_v44_1))).symm

/-- So the second result array ends holding the second row after the last tile. -/
theorem final_snd (c : Dev nD) :
    (dat1 (F := Ideal) V c).arrAt 2 cfg1.N
      = ((outsAt1 V c 19 lt19).2 : Buf (Elt Ideal) ((c : Thread nD τ).loc main_v44_1)) :=
  (dat1 V c).arrAt_eq_of_cover 2 _ (flushed_snd V c) fun i =>
    ⟨t19, (flush1_2 t19).mpr rfl, by
      show i ∈ ((View.whole main_v44_1).slice (win1_2.rect t19)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t19 0 * win1_2.size 0 ≤ (i 0 : Nat) ∧ (i 0 : Nat) < win1_2.index t19 0 * win1_2.size 0 + win1_2.xsize (grid1.coords t19) 0
        rw [show win1_2.index t19 0 * win1_2.size 0 = 0 from by decide +kernel, show win1_2.xsize (grid1.coords t19) 0 = 1 from by decide +kernel]; omega
      | ⟨1, _⟩ =>
        show win1_2.index t19 1 * win1_2.size 1 ≤ (i 1 : Nat) ∧ (i 1 : Nat) < win1_2.index t19 1 * win1_2.size 1 + win1_2.xsize (grid1.coords t19) 1
        rw [show win1_2.index t19 1 * win1_2.size 1 = 0 from by decide +kernel, show win1_2.xsize (grid1.coords t19) 1 = 128 from by decide +kernel]; omega⟩

/-- THE FIRST RESULT at column q: the sum of column q of the reduced array over its 100000 rows. -/
theorem sum_value (c : Dev nD) (q : Fin 128) :
    (Gen.dat1 (F := Ideal) V c).arrAt 1 cfg1.N (ix2 (0 : Fin 1) q) = ∑ r : Fin 100000, entry V c r q :=
  (congrFun (final_fst V c) (ix2 (0 : Fin 1) q)).trans
    (running_total V c q (fun x => x) (k1_pay4 (F := Ideal)) (k1_pay2 (F := Ideal)) (fun x a => pay4_apply x a q)
      (zero_row_apply _) (fun n h => (outsAt1 V c n h).1) (fst_zero V c) (fst_succ V c) lt19)

/-- THE SECOND RESULT at column q: the sum of the squares of column q of the reduced array over its 100000 rows. -/
theorem sumsq_value (c : Dev nD) (q : Fin 128) :
    (Gen.dat1 (F := Ideal) V c).arrAt 2 cfg1.N (ix2 (0 : Fin 1) q) = ∑ r : Fin 100000, entry V c r q * entry V c r q :=
  (congrFun (final_snd V c) (ix2 (0 : Fin 1) q)).trans
    (running_total V c q (fun x => x * x) (k1_pay5 (F := Ideal)) (k1_pay3 (F := Ideal)) (fun x a => pay5_apply x a q)
      (zero_row_apply' _) (fun n h => (outsAt1 V c n h).2) (snd_zero V c) (snd_succ V c) lt19)

end Final

end Cert.KernelIdeal.ReduceRegion

end
-- ==== Proof.FinalizeRegion.lean ====
/-
  The finalising region of the layer, read entry by entry.

  The region walks the 100000 rows in twenty blocks of 5000. At each block it centres the pre-activation by the column
  mean, multiplies by the reciprocal deviation and the learned scale, adds the shift, applies the leaky rectifier and
  adds the layer's input back. The column statistics, scale and shift are single rows shared by every block, and the
  rectifier's slope is a single number. Every operation acts entry by entry, so entry (r, q) of the result depends only
  on entry (r, q) of the two large arrays, on column q of the four rows and on the slope: it is the layer's entry
  `Cert.GcnNorm.finish` of those seven numbers. The blocks are disjoint ranges of rows that together exhaust the array,
  so the same description holds for the whole array, whatever the seven arrays hold when the region starts.
-/
import proofs.«146365_j46978352284507_1_alg».proof.Proof.Gen.KernelIdeal.Frame
import proofs.«146365_j46978352284507_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.FinalizeRegion

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the stored value at a row and a column -/

/-- A one-row block, recast to its own shape and repeated down 5000 rows, reads at (j, q) its entry in column q. -/
theorem row_repeat (v : Vec Ideal S1x128 .f32) (j : Fin 5000) (q : Fin 128) :
    broadcastTo S5000x128 (shapeCast S1x128 v shapeCasts_S1x128_S1x128) broadcasts_S1x128_S5000x128 (ix2 j q)
      = v (ix2 (0 : Fin 1) q) := by
  rw [shapeCast_self]
  exact broadcastTo_1b_ab_apply v broadcasts_S1x128_S5000x128 j q

/-- The entry taken at position (0, 0) of a one-by-one block is its only entry. -/
theorem slope_entry (a : Vec Ideal S1x1 .f32) :
    extractAt ![0, 0] a inpos_S1x1_p0_0 = a (ix2 (0 : Fin 1) (0 : Fin 1)) :=
  congrArg a (funext fun d => by match d with | ⟨0, _⟩ => rfl | ⟨1, _⟩ => rfl)

/-- The value the body stores at row j, column q of a block is the layer's entry of: the two large blocks at (j, q),
    the four one-row blocks at column q, and the slope block's only entry. Subtraction, the three products, the two
    sums, the comparison with zero and the choice all act entry by entry; the rows are repeated down the block. -/
theorem pay_apply (y : Vec Ideal S5000x128 .f32) (μ ρ γ β : Vec Ideal S1x128 .f32) (a : Vec Ideal S1x1 .f32)
    (x : Vec Ideal S5000x128 .f32) (j : Fin 5000) (q : Fin 128) :
    k2_pay1 (F := Ideal) y μ ρ γ β a x (ix2 j q)
      = Cert.GcnNorm.finish (y (ix2 j q)) (μ (ix2 (0 : Fin 1) q)) (ρ (ix2 (0 : Fin 1) q)) (γ (ix2 (0 : Fin 1) q))
          (β (ix2 (0 : Fin 1) q)) (a (ix2 (0 : Fin 1) (0 : Fin 1))) (x (ix2 j q)) := by
  unfold k2_pay1 Cert.GcnNorm.finish Cert.GcnNorm.affine
  rw [shapeCast_self]
  simp only [addf_apply, select_apply, cmpf_apply, mulf_apply, subf_apply, broadcast_apply]
  rw [row_repeat μ j q, row_repeat ρ j q, row_repeat γ j q, row_repeat β j q, slope_entry a]
  rfl

/-! ## The whole array -/

variable (V : (c : Dev nD) → (b : Ref sig .tc) → Buf (Elt Ideal) ((c : Thread nD τ).loc b))

/-- Row r, column q of the layer's output, from the arrays the region finds: the pre-activation and the layer's input
    at (r, q); the column mean, reciprocal deviation, scale and shift at column q of their single rows; the slope. -/
def entry (c : Dev nD) (r : Fin 100000) (q : Fin 128) : EReal :=
  Cert.GcnNorm.finish (V c main_v43 (ix2 r q)) (V c main_v46 (ix2 (0 : Fin 1) q)) (V c main_v53 (ix2 (0 : Fin 1) q))
    (V c main_v54 (ix2 (0 : Fin 1) q)) (V c main_v55 (ix2 (0 : Fin 1) q)) (V c main_v56 (ix2 (0 : Fin 1) (0 : Fin 1)))
    (V c main_arg0 (ix2 r q))

/-- The whole output array: an index is a (row, column) pair. -/
def layerOut (c : Dev nD) : S100000x128.Idx → EReal := fun i => entry V c (i 0) (i 1)

/-- The layer's entry at (r, q) depends on the seven arrays only through the seven indices it reads them at. -/
theorem entry_of_indices (c : Dev nD) (r : Fin 100000) (q : Fin 128)
    (i0 i1 : S100000x128.Idx) (k2 k3 k4 k5 : S1x128.Idx) (k6 : S1x1.Idx)
    (h0 : i0 = ix2 r q) (h1 : i1 = ix2 r q) (h2 : k2 = ix2 (0 : Fin 1) q) (h3 : k3 = ix2 (0 : Fin 1) q)
    (h4 : k4 = ix2 (0 : Fin 1) q) (h5 : k5 = ix2 (0 : Fin 1) q) (h6 : k6 = ix2 (0 : Fin 1) (0 : Fin 1)) :
    Cert.GcnNorm.finish (V c main_v43 i0) (V c main_v46 k2) (V c main_v53 k3) (V c main_v54 k4) (V c main_v55 k5)
      (V c main_v56 k6) (V c main_arg0 i1) = entry V c r q := by
  subst h0 h1 h2 h3 h4 h5 h6; rfl

theorem zero_offsets : (![0, 0] : Fin 2 → Nat) = fun _ => 0 := funext fun a => by fin_cases a <;> rfl

/-- Where each operand's block sits at grid point t, checked at each of the twenty points: the two large inputs and the
    output advance by one block of rows per point and never move sideways; the five small inputs stay at their only
    block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point t writes back is block t of the layer's output: rows 5000·t … 5000·t + 4999. Row j of a large block
    is row 5000·t + j of its array, the column is unchanged, and a small block is its whole array; so the stored
    value at (j, q) is the layer's entry at (5000·t + j, q). -/
theorem flushed_eq (c : Dev nD) (t : Fin cfg2.N) :
    (dat2 (F := Ideal) V c).flushed 7 t = ((cfg2.win 7).blk t).view.read (Elt Ideal) (layerOut V c) := by
  show (cfg2.win 7).cut (grid2.coords t) ((dat2 (F := Ideal) V c).after 7 t) = _
  rw [after2_7]
  unfold out2_7
  rw [View.canon_unit_zero zero_offsets]
  simp only [View.ld_unit_zero (S := S5000x128) zero_offsets, View.ld_unit_zero (S := S1x128) zero_offsets,
    View.ld_unit_zero (S := S1x1) zero_offsets]
  funext j
  obtain ⟨p, q, rfl⟩ : ∃ (p : Fin 5000) (q : Fin 128), j = ix2 p q := ⟨j 0, j 1, eq_ix2 j⟩
  refine (pay_apply (iblk2 V c 0 t) (iblk2 V c 2 t) (iblk2 V c 3 t) (iblk2 V c 4 t) (iblk2 V c 5 t) (iblk2 V c 6 t)
    (iblk2 V c 1 t) p q).trans ?_
  have hN : cfg2.N = 20 := N_2
  have ht : t.val < 20 := by have := t.isLt; omega
  obtain ⟨a0, a1, b0, b1, c0, c1, d0, d1, e0, e1, f0, f1, g0, g1, o0, o1⟩ := block_index t
  have hout : ((cfg2.win 7).blk t).view.emb (ix2 p q) = ix2 (⟨5000 * t.val + p.val, by omega⟩ : Fin 100000) q := by
    funext a; apply Fin.ext
    match a with
    | ⟨0, _⟩ => show win2_7.index t (0 : Fin 2) * 5000 + 1 * p.val = 5000 * t.val + p.val; omega
    | ⟨1, _⟩ => show win2_7.index t (1 : Fin 2) * 128 + 1 * q.val = q.val; omega
  show _ = layerOut V c (((cfg2.win 7).blk t).view.emb (ix2 p q))
  rw [hout]
  refine entry_of_indices V c ⟨5000 * t.val + p.val, by omega⟩ q
    (((cfg2.win 0).blk t).view.emb (ix2 p q)) (((cfg2.win 1).blk t).view.emb (ix2 p q))
    (((cfg2.win 2).blk t).view.emb (ix2 (0 : Fin 1) q)) (((cfg2.win 3).blk t).view.emb (ix2 (0 : Fin 1) q))
    (((cfg2.win 4).blk t).view.emb (ix2 (0 : Fin 1) q)) (((cfg2.win 5).blk t).view.emb (ix2 (0 : Fin 1) q))
    (((cfg2.win 6).blk t).view.emb (ix2 (0 : Fin 1) (0 : Fin 1))) ?_ ?_ ?_ ?_ ?_ ?_ ?_
  · funext a; apply Fin.ext
    match a with
    | ⟨0, _⟩ => show win2_0.index t (0 : Fin 2) * 5000 + 1 * p.val = 5000 * t.val + p.val; omega
    | ⟨1, _⟩ => show win2_0.index t (1 : Fin 2) * 128 + 1 * q.val = q.val; omega
  · funext a; apply Fin.ext
    match a with
    | ⟨0, _⟩ => show win2_1.index t (0 : Fin 2) * 5000 + 1 * p.val = 5000 * t.val + p.val; omega
    | ⟨1, _⟩ => show win2_1.index t (1 : Fin 2) * 128 + 1 * q.val = q.val; omega
  · funext a; apply Fin.ext
    match a with
    | ⟨0, _⟩ => show win2_2.index t (0 : Fin 2) * 1 + 1 * 0 = 0; omega
    | ⟨1, _⟩ => show win2_2.index t (1 : Fin 2) * 128 + 1 * q.val = q.val; omega
  · funext a; apply Fin.ext
    match a with
    | ⟨0, _⟩ => show win2_3.index t (0 : Fin 2) * 1 + 1 * 0 = 0; omega
    | ⟨1, _⟩ => show win2_3.index t (1 : Fin 2) * 128 + 1 * q.val = q.val; omega
  · funext a; apply Fin.ext
    match a with
    | ⟨0, _⟩ => show win2_4.index t (0 : Fin 2) * 1 + 1 * 0 = 0; omega
    | ⟨1, _⟩ => show win2_4.index t (1 : Fin 2) * 128 + 1 * q.val = q.val; omega
  · funext a; apply Fin.ext
    match a with
    | ⟨0, _⟩ => show win2_5.index t (0 : Fin 2) * 1 + 1 * 0 = 0; omega
    | ⟨1, _⟩ => show win2_5.index t (1 : Fin 2) * 128 + 1 * q.val = q.val; omega
  · funext a; apply Fin.ext
    match a with
    | ⟨0, _⟩ => show win2_6.index t (0 : Fin 2) * 1 + 1 * 0 = 0; omega
    | ⟨1, _⟩ => show win2_6.index t (1 : Fin 2) * 1 + 1 * 0 = 0; omega

/-- An index of the output array lies in point t's block iff each coordinate lies in the block's range on its axis. -/
theorem mem_block (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v57).slice (win2_7.rect t)).set ↔ _
  rw [View.set_slice_whole, Rect.mem_set_unit]
  exact Iff.rfl

/-- Row r lies in the block of point r / 5000, and every point writes its block back: the blocks exhaust the array. -/
theorem covered (i : S100000x128.Idx) :
    ∃ t : Fin cfg2.N, (cfg2.win 7).flush t = true ∧ i ∈ ((cfg2.win 7).blk t).view.set := by
  have hN : cfg2.N = 20 := N_2
  have hi0 : (i 0).val < 100000 := (i 0).isLt
  have hi1 : (i 1).val < 128 := (i 1).isLt
  refine ⟨⟨(i 0).val / 5000, by omega⟩, flush2_7 _, ?_⟩
  rw [mem_block]
  obtain ⟨-, -, -, -, -, -, -, -, -, -, -, -, -, -, o0, o1⟩ := block_index ⟨(i 0).val / 5000, by omega⟩
  intro a
  match a with
  | ⟨0, _⟩ =>
    show win2_7.index ⟨(i 0).val / 5000, _⟩ (0 : Fin 2) * 5000 ≤ (i 0).val
      ∧ (i 0).val < win2_7.index ⟨(i 0).val / 5000, _⟩ (0 : Fin 2) * 5000 + 5000
    rw [o0]; show (i 0).val / 5000 * 5000 ≤ (i 0).val ∧ (i 0).val < (i 0).val / 5000 * 5000 + 5000; omega
  | ⟨1, _⟩ =>
    show win2_7.index ⟨(i 0).val / 5000, _⟩ (1 : Fin 2) * 128 ≤ (i 1).val
      ∧ (i 1).val < win2_7.index ⟨(i 0).val / 5000, _⟩ (1 : Fin 2) * 128 + 128
    rw [o1]; omega

/-- The array the region leaves is the layer's output: every block written back is a block of it, and the blocks
    exhaust the array. -/
theorem final (c : Dev nD) : (dat2 (F := Ideal) V c).arrAt 7 cfg2.N = layerOut V c :=
  (dat2 (F := Ideal) V c).arrAt_eq_of_cover 7 (layerOut V c) (fun t _ => flushed_eq V c t) covered

/-- Entry (r, q) of the array the finalising region leaves, whatever the seven arrays hold when the region starts:
    the layer's entry of the pre-activation and the input at (r, q), the four rows at column q, and the slope. -/
theorem value (c : Dev nD) (r : Fin 100000) (q : Fin 128) :
    (Gen.dat2 (F := Ideal) V c).arrAt 7 cfg2.N (ValueIdx.ix2 r q)
      = Cert.GcnNorm.finish (V c main_v43 (ValueIdx.ix2 r q)) (V c main_v46 (ValueIdx.ix2 0 q))
          (V c main_v53 (ValueIdx.ix2 0 q)) (V c main_v54 (ValueIdx.ix2 0 q)) (V c main_v55 (ValueIdx.ix2 0 q))
          (V c main_v56 (ValueIdx.ix2 0 0)) (V c main_arg0 (ValueIdx.ix2 r q)) :=
  congrFun (final V c) (ix2 r q)

end Cert.KernelIdeal.FinalizeRegion

end
-- ==== Proof.KernelValue.lean ====
/-
  The kernel's result, read at an index.

  Walking the program's boundaries backwards from the result: the last kernel writes, at (r, q), the layer's output
  entry of what it finds in its seven operand arrays; the third stretch fills five of them from the two accumulators
  and the parameters; the second kernel's accumulators hold the column sums and sums of squares of the pre-activation
  array; that array is the second stretch's, which is the reference's own stage of the arguments once the first
  kernel's product is the reference's product; and the first kernel's tiles do assemble that product. So the result at
  (r, q) is the layer's output entry of the pre-activation entry, the column's mean, and the reciprocal square root of
  (mean of squares − squared mean + eps).
-/
import proofs.«146365_j46978352284507_1_alg».proof.Proof.GlueStages
import proofs.«146365_j46978352284507_1_alg».proof.Proof.GlueStats
import proofs.«146365_j46978352284507_1_alg».proof.Proof.MatmulRegion
import proofs.«146365_j46978352284507_1_alg».proof.Proof.ReduceRegion
import proofs.«146365_j46978352284507_1_alg».proof.Proof.FinalizeRegion

set_option maxRecDepth 16384

open scoped BigOperators

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Glue Cert.GcnNorm

variable (m : (ℓ : Loc nD τ sig) → Buf (Elt Ideal) ℓ) (ρ : Dev nD → PrngReg)

/-- The pre-activation array: the reference's stage of the launch contents of x, W, b and the edge list. -/
def pre (c : Dev nD) : S100000x128.Idx → EReal :=
  Cert.ReferenceIdeal.ReadP.val_main_v43 (F := Ideal) (m ((c : Thread nD τ).loc main_arg0)) (m ((c : Thread nD τ).loc main_arg1))
    (m ((c : Thread nD τ).loc main_arg2)) (m ((c : Thread nD τ).loc main_arg6))

/-- The sum over k of A(r, k) · W(k, q) is the reference's product at (r, q). -/
theorem dot_eq (A : S100000x128.Idx → EReal) (W : S128x128.Idx → EReal) (r : Fin 100000) (q : Fin 128) :
    ∑ k : Fin 128, A (ix2 r k) * W (ix2 k q) = Cert.ReferenceIdeal.ReadP.val_main_v27 (F := Ideal) A W (ix2 r q) := by
  rw [Cert.ReferenceIdeal.ReadP.val_main_v27_apply]
  refine Finset.sum_congr rfl fun k _ => ?_
  congr 1 <;> exact congrArg _ (funext fun a => Fin.ext (by match a with | ⟨0, _⟩ => rfl | ⟨1, _⟩ => rfl))

/-- The first kernel's tiles assemble the reference's product: at (r, q) both are the sum over k of x(r, k) · W(k, q). -/
theorem product (c : Dev nD) :
    W2 m ρ c (Proc.devRef .tc main_v27)
      = Cert.ReferenceIdeal.ReadP.val_main_v27 (F := Ideal) (m ((c : Thread nD τ).loc main_arg0)) (m ((c : Thread nD τ).loc main_arg1)) := by
  refine (W2_arr m ρ c 2).trans ?_
  funext i
  obtain ⟨r, q, rfl⟩ : ∃ (r : Fin 100000) (q : Fin 128), i = ix2 r q := ⟨i 0, i 1, eq_ix2 i⟩
  exact (MatmulRegion.value_of (V1 m ρ) c (m ((c : Thread nD τ).loc main_arg0)) (m ((c : Thread nD τ).loc main_arg1))
    (W1_arg0 m ρ c) (W1_arg1 m ρ c) r q).trans (dot_eq _ _ r q)

/-- The second stretch leaves the pre-activation array. -/
theorem preact (c : Dev nD) : W3 m ρ c (Proc.devRef .tc main_v43) = pre m c :=
  W3_v43 m ρ c (product m ρ c)

/-- The second kernel's input entries are the pre-activation column's. -/
theorem entry_eq (c : Dev nD) (q : Fin 128) :
    (fun r : Fin 100000 => ReduceRegion.entry (V3 m ρ) c r q) = fun r => col (pre m c) q r :=
  funext fun r => congrFun (preact m ρ c) (ix2 r q)

/-- The first accumulator holds the column sums of the pre-activation array. -/
theorem sum_at (c : Dev nD) (q : Fin 128) : sumAt m ρ c q = ∑ r : Fin 100000, col (pre m c) q r :=
  ((congrFun (W4_arr m ρ c 1) (ix2 (0 : Fin 1) q)).trans (ReduceRegion.sum_value (V3 m ρ) c q)).trans
    (congrArg (fun f : Fin 100000 → EReal => ∑ r, f r) (entry_eq m ρ c q))

/-- The second accumulator holds the column sums of squares. -/
theorem sumsq_at (c : Dev nD) (q : Fin 128) :
    sumsqAt m ρ c q = ∑ r : Fin 100000, col (pre m c) q r * col (pre m c) q r :=
  ((congrFun (W4_arr m ρ c 2) (ix2 (0 : Fin 1) q)).trans (ReduceRegion.sumsq_value (V3 m ρ) c q)).trans
    (congrArg (fun f : Fin 100000 → EReal => ∑ r, f r * f r) (entry_eq m ρ c q))

/-- The mean the last kernel finds, at column q. -/
theorem mean_at (c : Dev nD) (q : Fin 128) :
    (V5 m ρ c main_v46 (ix2 (0 : Fin 1) q) : EReal) = mean (col (pre m c) q) := by
  rw [V5_v46_at, sum_at]
  rfl

/-- The reciprocal standard deviation the last kernel finds, at column q. -/
theorem rstd_at (c : Dev nD) (q : Fin 128) :
    (V5 m ρ c main_v53 (ix2 (0 : Fin 1) q) : EReal) = Ideal.rsqrt (varSq (col (pre m c) q) + eps) := by
  rw [V5_v53_at, sum_at, sumsq_at]
  rfl

/-- The pre-activation entry the last kernel finds. -/
theorem V5_v43_at (c : Dev nD) (r : Fin 100000) (q : Fin 128) :
    (V5 m ρ c main_v43 (ix2 r q) : EReal) = col (pre m c) q r :=
  congrFun ((W5_v43 m ρ c).trans (preact m ρ c)) (ix2 r q)

/-- The kernel's result at (r, q). -/
theorem result_at (c : Dev nD) (r : Fin 100000) (q : Fin 128) :
    (W6 m ρ c (Proc.devRef .tc main_v57) (ix2 r q) : EReal)
      = finish (col (pre m c) q r) (mean (col (pre m c) q)) (Ideal.rsqrt (varSq (col (pre m c) q) + eps))
          (m ((c : Thread nD τ).loc main_arg3) (ix1 q)) (m ((c : Thread nD τ).loc main_arg4) (ix1 q))
          (m ((c : Thread nD τ).loc main_arg5) ix0) (m ((c : Thread nD τ).loc main_arg0) (ix2 r q)) := by
  refine (congrFun (W6_arr m ρ c 7) (ix2 r q)).trans ?_
  refine (FinalizeRegion.value (V5 m ρ) c r q).trans ?_
  rw [V5_v43_at m ρ c r q, mean_at m ρ c q, rstd_at m ρ c q, V5_v54_at m ρ c q, V5_v55_at m ρ c q, V5_v56_at m ρ c,
    V5_arg0 m ρ c]

end Cert.KernelIdeal.KernelValue

end
-- ==== Proof.RefValue.lean ====
/-
  The reference's result, read at an index.

  The reference normalises each column of the pre-activation array by its mean and by the reciprocal square root of
  (the mean of the squared deviations + eps), scales by gamma, shifts by beta, applies the leaky rectifier with slope a
  and adds the layer's input. Reading its operations one after the other at the entry (r, q) — every broadcast reads
  its operand at the column q, every reduction is the sum over the rows — gives that entry as the layer's output
  function of the column's statistics.
-/
import proofs.«146365_j46978352284507_1_alg».proof.Proof.RefRead
import proofs.«146365_j46978352284507_1_alg».proof.Proof.ColumnStats

open scoped BigOperators

noncomputable section

namespace Cert.ReferenceIdeal.RefValue

open Idealize.ShloMosaic Idealize.ShloMosaic.ValueIdx Cert.ReferenceIdeal Cert.ReferenceIdeal.ReadP Cert.GcnNorm

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 : (⟨S_, .f32⟩ : BufTy).Contents (Elt Ideal))
  (x6 : (⟨S2x1600000, .i32⟩ : BufTy).Contents (Elt Ideal))

/-- The pre-activation array. -/
def pre : S100000x128.Idx → EReal := val_main_v43 (F := Ideal) x0 x1 x2 x6

/-! ### Where each layout operation reads its operand -/

theorem idx44 (q : Fin 128) (k : Fin 100000) : idx_main_v44 (ix1 q) k = ix2 k q := by
  funext a; apply Fin.ext; match a with | ⟨0, _⟩ => rfl | ⟨1, _⟩ => rfl
theorem idx51 (q : Fin 128) (k : Fin 100000) : idx_main_v51 (ix1 q) k = ix2 k q := by
  funext a; apply Fin.ext; match a with | ⟨0, _⟩ => rfl | ⟨1, _⟩ => rfl
theorem idx47 (z : Fin 1) (q : Fin 128) : idx_main_v47 (ix2 z q) = ix1 q := by
  funext a; apply Fin.ext; match a with | ⟨0, _⟩ => rfl
theorem idx54 (z : Fin 1) (q : Fin 128) : idx_main_v54 (ix2 z q) = ix1 q := by
  funext a; apply Fin.ext; match a with | ⟨0, _⟩ => rfl
theorem idx60 (z : Fin 1) (q : Fin 128) : idx_main_v60 (ix2 z q) = ix1 q := by
  funext a; apply Fin.ext; match a with | ⟨0, _⟩ => rfl
theorem idx63 (z : Fin 1) (q : Fin 128) : idx_main_v63 (ix2 z q) = ix1 q := by
  funext a; apply Fin.ext; match a with | ⟨0, _⟩ => rfl
theorem idx66 (z : Fin 1) (q : Fin 128) : idx_main_v66 (ix2 z q) = ix1 q := by
  funext a; apply Fin.ext; match a with | ⟨0, _⟩ => rfl
theorem idx48 (r : Fin 100000) (q : Fin 128) : idx_main_v48 (ix2 r q) = ix2 (0 : Fin 1) q := by
  funext a; apply Fin.ext; match a with | ⟨0, _⟩ => rfl | ⟨1, _⟩ => rfl
theorem idx55 (r : Fin 100000) (q : Fin 128) : idx_main_v55 (ix2 r q) = ix2 (0 : Fin 1) q := by
  funext a; apply Fin.ext; match a with | ⟨0, _⟩ => rfl | ⟨1, _⟩ => rfl
theorem idx61 (r : Fin 100000) (q : Fin 128) : idx_main_v61 (ix2 r q) = ix2 (0 : Fin 1) q := by
  funext a; apply Fin.ext; match a with | ⟨0, _⟩ => rfl | ⟨1, _⟩ => rfl
theorem idx64 (r : Fin 100000) (q : Fin 128) : idx_main_v64 (ix2 r q) = ix2 (0 : Fin 1) q := by
  funext a; apply Fin.ext; match a with | ⟨0, _⟩ => rfl | ⟨1, _⟩ => rfl
theorem idx67 (r : Fin 100000) (q : Fin 128) : idx_main_v67 (ix2 r q) = ix2 (0 : Fin 1) q := by
  funext a; apply Fin.ext; match a with | ⟨0, _⟩ => rfl | ⟨1, _⟩ => rfl
theorem idx71 (i : S100000x128.Idx) : idx_main_v71 i = ix0 := funext fun a => a.elim0

/-! ### The column statistics -/

/-- The reference's mean at column q is the column's mean. -/
theorem mean_at (q : Fin 128) : val_main_v46 (F := Ideal) x0 x1 x2 x6 (ix1 q) = mean (col (pre x0 x1 x2 x6) q) := by
  rw [val_main_v46_apply, val_main_v44_apply, val_main_v45_apply, val_main_cst_8_apply, val_main_cst_7_apply]
  simp only [Ideal.hostDivf_def, Ideal.ofBits_def, Ideal.ofBits_zero_f32, zero_add, idx44, mean, col, pre,
    Cert.GcnNorm.count]

/-- The reference's deviation from the mean at (k, q). -/
theorem dev_at (k : Fin 100000) (q : Fin 128) :
    val_main_v49 (F := Ideal) x0 x1 x2 x6 (ix2 k q) = col (pre x0 x1 x2 x6) q k - mean (col (pre x0 x1 x2 x6) q) := by
  rw [val_main_v49_apply, val_main_v48_apply, val_main_v47_apply, idx48, idx47, mean_at]
  rfl

/-- The reference's squared deviation at (k, q). -/
theorem sqdev_at (k : Fin 100000) (q : Fin 128) :
    val_main_v50 (F := Ideal) x0 x1 x2 x6 (ix2 k q)
      = (col (pre x0 x1 x2 x6) q k - mean (col (pre x0 x1 x2 x6) q)) * (col (pre x0 x1 x2 x6) q k - mean (col (pre x0 x1 x2 x6) q)) := by
  rw [val_main_v50_apply, dev_at]
  rfl

/-- The reference's variance at column q is the mean of the squared deviations. -/
theorem var_at (q : Fin 128) : val_main_v53 (F := Ideal) x0 x1 x2 x6 (ix1 q) = varDev (col (pre x0 x1 x2 x6) q) := by
  rw [val_main_v53_apply, val_main_v51_apply, val_main_v52_apply, val_main_cst_10_apply, val_main_cst_9_apply]
  simp only [Ideal.hostDivf_def, Ideal.ofBits_def, Ideal.ofBits_zero_f32, zero_add, idx51, sqdev_at, varDev,
    Cert.GcnNorm.count]

/-- The reference's reciprocal standard deviation at column q. -/
theorem rstd_at (q : Fin 128) :
    val_main_v59 (F := Ideal) x0 x1 x2 x6 (ix1 q) = Ideal.rsqrt (varDev (col (pre x0 x1 x2 x6) q) + eps) := by
  rw [val_main_v59_apply, val_main_v58_apply, val_main_v57_apply, val_main_cst_11_apply, var_at]
  rfl

/-! ### The result -/

/-- The normalised entry at (r, q). -/
theorem norm_at (r : Fin 100000) (q : Fin 128) :
    val_main_v62 (F := Ideal) x0 x1 x2 x6 (ix2 r q)
      = (col (pre x0 x1 x2 x6) q r - mean (col (pre x0 x1 x2 x6) q)) * Ideal.rsqrt (varDev (col (pre x0 x1 x2 x6) q) + eps) := by
  rw [val_main_v62_apply, val_main_v61_apply, val_main_v60_apply, idx61, idx60, rstd_at,
    val_main_v56_apply, val_main_v55_apply, val_main_v54_apply, idx55, idx54, mean_at]
  rfl

/-- The scaled and shifted entry at (r, q). -/
theorem affine_at (r : Fin 100000) (q : Fin 128) :
    val_main_v68 (F := Ideal) x0 x1 x2 x3 x4 x6 (ix2 r q)
      = affine (col (pre x0 x1 x2 x6) q r) (mean (col (pre x0 x1 x2 x6) q)) (Ideal.rsqrt (varDev (col (pre x0 x1 x2 x6) q) + eps))
          (x3 (ix1 q)) (x4 (ix1 q)) := by
  rw [val_main_v68_apply, val_main_v67_apply, val_main_v66_apply, idx67, idx66,
    val_main_v65_apply, val_main_v64_apply, val_main_v63_apply, idx64, idx63, norm_at]
  rfl

/-- The reference's result at (r, q): the layer's output entry of the pre-activation entry, the column's mean and
    reciprocal standard deviation, gamma and beta at q, the slope, and the input entry. -/
theorem result_at (r : Fin 100000) (q : Fin 128) :
    val_main_v74 (F := Ideal) x0 x1 x2 x3 x4 x5 x6 (ix2 r q)
      = finish (col (pre x0 x1 x2 x6) q r) (mean (col (pre x0 x1 x2 x6) q)) (Ideal.rsqrt (varDev (col (pre x0 x1 x2 x6) q) + eps))
          (x3 (ix1 q)) (x4 (ix1 q)) (x5 ix0) (x0 (ix2 r q)) := by
  rw [val_main_v74_apply, val_main_v73_apply, val_main_v70_apply, val_main_v72_apply, val_main_v71_apply, idx71,
    val_main_v69_apply, val_main_cst_12_apply, affine_at]
  rfl

end Cert.ReferenceIdeal.RefValue

end
-- ==== Proof.RefResult.lean ====
/-
  The reference's run ends with its result at the last stage.

  The run of the reference names its result by one long term, every operation applied to the arguments in one
  expression; the stages name the same operations one at a time. Unfolding the stages gives that expression back, so
  the result buffer ends at the last stage of the launch contents of the arguments.
-/
import proofs.«146365_j46978352284507_1_alg».proof.Proof.RefRun
import proofs.«146365_j46978352284507_1_alg».proof.Proof.RefRead

noncomputable section

namespace Cert.ReferenceIdeal.RefResult

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 16384 in
/-- The run's term for the result is the last stage of the arguments' launch contents. -/
theorem res_eq (m : (ℓ : Loc nD τ sig) → Buf (Elt F) ℓ) (c : Dev nD) :
    Cert.ReferenceIdeal.ValueP.res_main_v74 m c = Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v74; rfl

end Cert.ReferenceIdeal.RefResult

end
-- ==== Proof.LibConsts.lean ====
/-
  The single-precision constants of a normalisation network, as real numbers.

  A single-precision pattern with sign 0, exponent field E (neither 0 nor 255) and fraction field T denotes the real
  (2²³ + T) · 2^(E − 150). The patterns below are the counts 600000, 50000 and 32, the numbers 0.5 and (in the library
  already) 0 and 1, and the pattern nearest to 10⁻⁵, which is 10995116 / 2⁴⁰, a positive real. The pattern with exponent
  field 255 and fraction field 0 denotes +∞.
-/
import Idealize.ShloMosaic.PureOps.Ideal
import Idealize.ShloMosaic.PureOps.Ideal.Laws

open Idealize.ShloMosaic

namespace Cert.BatchNorm.Consts

/-- The single-precision pattern 0x49127C00 denotes the real 600000. -/
theorem ofBits_600000 : Ideal.ofBits .f32 0x49127C00#32 = ((600000 : ℝ) : EReal) := by
  simp [Ideal.ofBits, Ideal.ieee, -EReal.coe_mul]; norm_num

/-- The single-precision pattern 0x47435000 denotes the real 50000. -/
theorem ofBits_50000 : Ideal.ofBits .f32 0x47435000#32 = ((50000 : ℝ) : EReal) := by
  simp [Ideal.ofBits, Ideal.ieee, -EReal.coe_mul]; norm_num

/-- The single-precision pattern 0x42000000 denotes the real 32. -/
theorem ofBits_32 : Ideal.ofBits .f32 0x42000000#32 = ((32 : ℝ) : EReal) := by
  simp [Ideal.ofBits, Ideal.ieee, -EReal.coe_mul]; norm_num

/-- The single-precision pattern 0x3F000000 denotes the real one half. -/
theorem ofBits_half : Ideal.ofBits .f32 0x3F000000#32 = ((1 / 2 : ℝ) : EReal) := by
  simp [Ideal.ofBits, Ideal.ieee, -EReal.coe_mul]; norm_num

/-- The single-precision pattern 0x3F800000 denotes the real one. -/
theorem ofBits_one : Ideal.ofBits .f32 0x3F800000#32 = ((1 : ℝ) : EReal) := by
  simp [Ideal.ofBits, Ideal.ieee, -EReal.coe_mul]; norm_num

/-- The single-precision pattern 0x00000000 denotes the real zero. -/
theorem ofBits_zero : Ideal.ofBits .f32 0x00000000#32 = ((0 : ℝ) : EReal) := by
  rw [Ideal.ofBits_zero_f32, EReal.coe_zero]

/-- The single-precision pattern 0x3727C5AC (the nearest to 10⁻⁵) denotes the real 10995116 / 2⁴⁰. -/
theorem ofBits_eps : Ideal.ofBits .f32 0x3727C5AC#32 = ((10995116 / 2 ^ 40 : ℝ) : EReal) := by
  simp [Ideal.ofBits, Ideal.ieee, -EReal.coe_mul]; norm_num

/-- The single-precision pattern 0x7F800000 denotes +∞. -/
theorem ofBits_inf : Ideal.ofBits .f32 0x7F800000#32 = ⊤ := by
  simp [Ideal.ofBits, Ideal.ieee]

/-- The real the pattern 0x3727C5AC denotes is positive. -/
theorem eps_pos : (0 : ℝ) < 10995116 / 2 ^ 40 := by norm_num

end Cert.BatchNorm.Consts
-- ==== Proof.LibAllReal.lean ====
/-
  Every entry is a real number: a property of arrays of extended reals, carried through the operations of a network.

  An array over a shape is a function from the shape's indices to the extended reals. It is called all-real here when
  every entry is the image of a real number. The lemmas below say that each operation that sits between the layers of a
  message-passing network keeps that property:

  · entrywise sums, differences, products, maxima, quotients by nonzero reals, format changes (the identity on the
    extended reals), integer-to-float conversions, selections;
  · constants whose pattern denotes a real, and anything that only re-indexes its operand: broadcasts, shape casts,
    slices, gathers (every entry of the result is an entry of the operand);
  · concatenations (every entry of the result is an entry of one of the blocks);
  · accumulating scatters, sums over axes, matrix products (an entry plus a finite sum of entries, or of products);
  · reciprocal square roots of arrays whose entries are positive reals.

  Two companions: an array is all-nonnegative / all-positive when every entry is the image of a real ≥ 0 / > 0. A
  nonnegative array plus a positive one is positive, which is what the variance plus a small positive constant needs
  before its reciprocal square root is taken.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«146365_j46978352284507_1_alg».proof.Proof.LibRealSums
import proofs.«146365_j46978352284507_1_alg».proof.Proof.LibBatchNorm
import proofs.«146365_j46978352284507_1_alg».proof.Proof.LibConsts

open scoped BigOperators
open Idealize.ShloMosaic Cert.RealSums Cert.BatchNorm

namespace Cert.AllReal

/-- Every entry of the array is the image of a real number. -/
def AllReal {S : Shape} (v : S.Idx → EReal) : Prop := ∀ i, IsReal (v i)

/-- Every entry of the array is the image of a real number that is not negative. -/
def AllNonneg {S : Shape} (v : S.Idx → EReal) : Prop := ∀ i, ∃ r : ℝ, 0 ≤ r ∧ v i = (r : EReal)

/-- Every entry of the array is the image of a positive real number. -/
def AllPos {S : Shape} (v : S.Idx → EReal) : Prop := ∀ i, ∃ r : ℝ, 0 < r ∧ v i = (r : EReal)

section Basics
variable {S : Shape}

/-- An all-nonnegative array is all-real. -/
theorem AllNonneg.allReal {v : S.Idx → EReal} (h : AllNonneg v) : AllReal v :=
  fun i => let ⟨r, _, hr⟩ := h i; ⟨r, hr⟩

/-- An all-positive array is all-real. -/
theorem AllPos.allReal {v : S.Idx → EReal} (h : AllPos v) : AllReal v :=
  fun i => let ⟨r, _, hr⟩ := h i; ⟨r, hr⟩

/-- An all-positive array is all-nonnegative. -/
theorem AllPos.allNonneg {v : S.Idx → EReal} (h : AllPos v) : AllNonneg v :=
  fun i => let ⟨r, h0, hr⟩ := h i; ⟨r, h0.le, hr⟩

/-- No entry of an all-positive array is zero. -/
theorem AllPos.ne_zero {v : S.Idx → EReal} (h : AllPos v) (i : S.Idx) : v i ≠ 0 := by
  obtain ⟨r, h0, hr⟩ := h i
  rw [hr]
  exact_mod_cast h0.ne'

/-- RE-INDEXING. An array that reads an all-real array at some index of it, whatever the index, is all-real. -/
theorem allReal_comp {T : Shape} {x : S.Idx → EReal} (hx : AllReal x) (f : T.Idx → S.Idx) : AllReal fun j => x (f j) :=
  fun j => hx (f j)

/-- Re-indexing keeps positivity. -/
theorem allPos_comp {T : Shape} {x : S.Idx → EReal} (hx : AllPos x) (f : T.Idx → S.Idx) : AllPos fun j => x (f j) :=
  fun j => hx (f j)

/-- Re-indexing keeps nonnegativity. -/
theorem allNonneg_comp {T : Shape} {x : S.Idx → EReal} (hx : AllNonneg x) (f : T.Idx → S.Idx) :
    AllNonneg fun j => x (f j) :=
  fun j => hx (f j)

end Basics

/-! ### Entrywise operations -/

section Elementwise
variable {s : Shape} {φ : FTy}

/-- The entrywise sum of two all-real arrays is all-real. -/
theorem allReal_addf {x y : FVec Ideal s φ} (hx : AllReal x) (hy : AllReal y) : AllReal (addf x y) :=
  fun i => (hx i).add (hy i)

/-- The entrywise difference of two all-real arrays is all-real. -/
theorem allReal_subf {x y : FVec Ideal s φ} (hx : AllReal x) (hy : AllReal y) : AllReal (subf x y) :=
  fun i => isReal_sub (hx i) (hy i)

/-- The entrywise product of two all-real arrays is all-real. -/
theorem allReal_mulf {x y : FVec Ideal s φ} (hx : AllReal x) (hy : AllReal y) : AllReal (mulf x y) :=
  fun i => (hx i).mul (hy i)

/-- The entrywise negative of an all-real array is all-real. -/
theorem allReal_negf {x : FVec Ideal s φ} (hx : AllReal x) : AllReal (negf x) :=
  fun i => isReal_neg (hx i)

/-- The entrywise maximum of two all-real arrays is all-real. -/
theorem allReal_maximumf {x y : FVec Ideal s φ} (hx : AllReal x) (hy : AllReal y) : AllReal (maximumf x y) :=
  fun i => isReal_max (hx i) (hy i)

/-- The host's entrywise quotient of an all-real array by an all-real array without a zero entry is all-real. -/
theorem allReal_hostDivf {x d : FVec Ideal s φ} (hx : AllReal x) (hd : AllReal d) (hd0 : ∀ i, d i ≠ 0) :
    AllReal (Host.divf x d) :=
  fun i => isReal_div (hx i) (hd i) (hd0 i)

/-- A kernel's entrywise quotient of an all-real array by an all-real array without a zero entry is all-real. -/
theorem allReal_divf {x d : FVec Ideal s φ} (hx : AllReal x) (hd : AllReal d) (hd0 : ∀ i, d i ≠ 0) :
    AllReal (divf x d) :=
  fun i => isReal_div (hx i) (hd i) (hd0 i)

/-- The entrywise maximum of an all-real array and an all-positive array is all-positive (a count raised to at least
    one). -/
theorem allPos_maximumf_right {x y : FVec Ideal s φ} (hx : AllReal x) (hy : AllPos y) : AllPos (maximumf x y) := by
  intro i
  obtain ⟨a, ha⟩ := hx i
  obtain ⟨b, hb0, hb⟩ := hy i
  refine ⟨max a b, lt_of_lt_of_le hb0 (le_max_right a b), ?_⟩
  show max (x i) (y i) = _
  rw [ha, hb]
  rcases le_total a b with h | h
  · rw [max_eq_right h, max_eq_right (EReal.coe_le_coe_iff.mpr h)]
  · rw [max_eq_left h, max_eq_left (EReal.coe_le_coe_iff.mpr h)]

/-- The sum of an all-nonnegative array and an all-positive array is all-positive. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A narrowing format change is the identity on the extended reals. -/
theorem truncf_eq (ψ : FTy) (x : FVec Ideal s φ) (h : ψ.bits < φ.bits) : (truncf ψ x h : s.Idx → EReal) = x := rfl

/-- A widening format change is the identity on the extended reals. -/
theorem extf_eq (ψ : FTy) (x : FVec Ideal s φ) (h : φ.bits < ψ.bits) : (extf ψ x h : s.Idx → EReal) = x := rfl

/-- A narrowing format change keeps an array all-real. -/
theorem allReal_truncf (ψ : FTy) {x : FVec Ideal s φ} (h : ψ.bits < φ.bits) (hx : AllReal x) : AllReal (truncf ψ x h) :=
  hx

/-- A widening format change keeps an array all-real. -/
theorem allReal_extf (ψ : FTy) {x : FVec Ideal s φ} (h : φ.bits < ψ.bits) (hx : AllReal x) : AllReal (extf ψ x h) :=
  hx

/-- An array of signed integers converted to floats is all-real: each entry is the integer itself. -/
theorem allReal_sitofp {w : Nat} (x : IVec s w) : AllReal (sitofp (F := Ideal) φ x) :=
  fun i => ⟨((x i).toInt : ℝ), rfl⟩

/-- A selection between two all-real arrays is all-real, whatever the mask. -/
theorem allReal_select (c : IVec s 1) {a b : FVec Ideal s φ} (ha : AllReal a) (hb : AllReal b) :
    AllReal (select c a b) :=
  fun i => isReal_select (c i) (ha i) (hb i)

/-- The leaky rectifier of an all-real array with an all-real slope array is all-real: z where z ≥ 0, slope · z
    elsewhere, the comparison being against any array. -/
theorem allReal_prelu (p : CmpFPredicate) {z a zero : FVec Ideal s φ} (hz : AllReal z) (ha : AllReal a) :
    AllReal (select (cmpf p z zero) z (mulf a z)) :=
  allReal_select _ hz (allReal_mulf ha hz)

/-- The reciprocal square root (a kernel's) of an all-positive array is all-real. -/
theorem allReal_rsqrt {x : FVec Ideal s φ} (hx : AllPos x) : AllReal (rsqrt x) := by
  intro i
  obtain ⟨r, h0, hr⟩ := hx i
  show IsReal (Ideal.rsqrt (x i))
  rw [hr]
  exact isReal_rsqrt_of_pos h0

/-- The reciprocal square root (the host's) of an all-positive array is all-real. -/
theorem allReal_hostRsqrt {x : FVec Ideal s φ} (hx : AllPos x) : AllReal (Host.rsqrt x) := by
  intro i
  obtain ⟨r, h0, hr⟩ := hx i
  show IsReal (Ideal.rsqrt (x i))
  rw [hr]
  exact isReal_rsqrt_of_pos h0

end Elementwise

/-! ### Constants and re-indexings -/

section Layout
variable {s t : Shape}

/-- The splat of a pattern that denotes a real is all-real. -/
theorem allReal_constant (s : Shape) (φ : FTy) (b : BitVec φ.bits) (hb : IsReal (Ideal.ofBits φ b)) :
    AllReal (constant (F := Ideal) s φ b) :=
  fun _ => hb

/-- The splat of a pattern that denotes a positive real is all-positive. -/
theorem allPos_constant (s : Shape) (φ : FTy) (b : BitVec φ.bits) {r : ℝ} (h0 : 0 < r)
    (hb : Ideal.ofBits φ b = (r : EReal)) : AllPos (constant (F := Ideal) s φ b) :=
  fun _ => ⟨r, h0, hb⟩

/-- The splat of a real scalar is all-real. -/
theorem allReal_broadcast (t : Shape) {x : EReal} (hx : IsReal x) : AllReal (broadcast t x) :=
  fun _ => hx

/-- A broadcast along named axes of an all-real array is all-real. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast along named axes of an all-positive array is all-positive. -/
theorem allPos_broadcastInDim (t : Shape) (dims : Fin s.rank → Fin t.rank) (h : s.BroadcastsInDim t dims)
    {x : s.Idx → EReal} (hx : AllPos x) : AllPos (broadcastInDim t dims h x) :=
  fun _ => hx _

/-- A broadcast along named axes of an all-nonnegative array is all-nonnegative. -/
theorem allNonneg_broadcastInDim (t : Shape) (dims : Fin s.rank → Fin t.rank) (h : s.BroadcastsInDim t dims)
    {x : s.Idx → EReal} (hx : AllNonneg x) : AllNonneg (broadcastInDim t dims h x) :=
  fun _ => hx _

/-- A broadcast of the splat of a pattern that denotes a real is all-real. -/
theorem allReal_broadcastInDim_constant (t : Shape) (dims : Fin s.rank → Fin t.rank) (h : s.BroadcastsInDim t dims)
    (φ : FTy) (b : BitVec φ.bits) (hb : IsReal (Ideal.ofBits φ b)) :
    AllReal (broadcastInDim t dims h (constant (F := Ideal) s φ b)) :=
  allReal_broadcastInDim t dims h (allReal_constant s φ b hb)

/-- A broadcast to trailing axes of an all-real array is all-real. -/
theorem allReal_broadcastTo (t : Shape) {x : s.Idx → EReal} (h : s.Broadcasts t) (hx : AllReal x) :
    AllReal (broadcastTo t x h) :=
  fun _ => hx _

/-- A shape cast of an all-real array is all-real. -/
theorem allReal_shapeCast (t : Shape) {x : s.Idx → EReal} (h : s.ShapeCasts t) (hx : AllReal x) :
    AllReal (shapeCast t x h) :=
  fun _ => hx _

/-- A shape cast of an all-positive array is all-positive. -/
theorem allPos_shapeCast (t : Shape) {x : s.Idx → EReal} (h : s.ShapeCasts t) (hx : AllPos x) :
    AllPos (shapeCast t x h) :=
  fun _ => hx _

/-- A shape cast of an all-nonnegative array is all-nonnegative. -/
theorem allNonneg_shapeCast (t : Shape) {x : s.Idx → EReal} (h : s.ShapeCasts t) (hx : AllNonneg x) :
    AllNonneg (shapeCast t x h) :=
  fun _ => hx _

/-- A slice of an all-real array is all-real. -/
theorem allReal_extractStridedSlice (t : Shape) (off : Fin s.rank → Nat) {x : s.Idx → EReal} (h : s.Slices off t)
    (hx : AllReal x) : AllReal (extractStridedSlice t off x h) :=
  fun _ => hx _

/-- A gather out of an all-real array is all-real, whatever the dimension numbers and the indices: every entry of the
    result is an entry of the operand. -/
theorem allReal_gather {si : Shape} {w : Nat} (d : GatherDims s si t) {x : s.Idx → EReal} (idx : IVec si w)
    (hx : AllReal x) : AllReal (Host.gather d x idx) :=
  fun _ => hx _

/-- A concatenation of all-real blocks is all-real, whatever the number of blocks and the axis: every entry of the
    result is an entry of one of the blocks. -/
theorem allReal_concatenate (t : Shape) (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- Two all-real blocks side by side are all-real. -/
theorem allReal_concatenate_two (t : Shape) (a : Fin t.rank) {s1 s2 : Shape} {u0 : s1.Idx → EReal} {u1 : s2.Idx → EReal}
    (h : Shape.Concatenates [s1, s2] t a) (h0 : AllReal u0) (h1 : AllReal u1) :
    AllReal (concatenate t a [⟨s1, u0⟩, ⟨s2, u1⟩] h) := by
  refine allReal_concatenate t a [⟨s1, u0⟩, ⟨s2, u1⟩] h fun p hp => ?_
  rcases List.mem_cons.mp hp with rfl | hp
  · exact h0
  rcases List.mem_cons.mp hp with rfl | hp
  · exact h1
  exact absurd hp List.not_mem_nil

/-- Three all-real blocks side by side are all-real. -/
theorem allReal_concatenate_three (t : Shape) (a : Fin t.rank) {s1 s2 s3 : Shape} {u0 : s1.Idx → EReal}
    {u1 : s2.Idx → EReal} {u2 : s3.Idx → EReal} (h : Shape.Concatenates [s1, s2, s3] t a) (h0 : AllReal u0)
    (h1 : AllReal u1) (h2 : AllReal u2) : AllReal (concatenate t a [⟨s1, u0⟩, ⟨s2, u1⟩, ⟨s3, u2⟩] h) := by
  refine allReal_concatenate t a [⟨s1, u0⟩, ⟨s2, u1⟩, ⟨s3, u2⟩] h fun p hp => ?_
  rcases List.mem_cons.mp hp with rfl | hp
  · exact h0
  rcases List.mem_cons.mp hp with rfl | hp
  · exact h1
  rcases List.mem_cons.mp hp with rfl | hp
  · exact h2
  exact absurd hp List.not_mem_nil

end Layout

/-! ### Sums: scatters, reductions, products -/

section Sums
variable {s t : Shape} {φ : FTy}

/-- An accumulating scatter of all-real updates into an all-real operand is all-real, whatever the dimension numbers
    and the indices: every entry of the result is an entry of the operand plus a finite sum of updates. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's sum over axes of an all-real array, from a real initial value, is all-real. -/
theorem allReal_hostReduceAdd {axes : List (Fin s.rank)} {u : Shape} {x : FVec Ideal s φ} {init : u.Idx → Ideal φ}
    (h : s.ReducesTo axes t) (hu : 0 < u.numel) (hx : AllReal x) (hinit : ∀ i, IsReal (init i)) :
    AllReal (Host.reduceAdd x init h hu) := by
  intro j
  show IsReal (Ideal.hostReduceAdd h x (init (Shape.Idx.first hu)) j)
  unfold Ideal.hostReduceAdd
  exact (hinit _).add (isReal_sum _ _ fun i _ => hx i)

/-- A kernel's sum over axes of an all-real array is all-real. -/
theorem allReal_multiReduction_add (axes : List (Fin s.rank)) (t : Shape) {src : FVec Ideal s φ} (acc : BitVec φ.bits)
    (h : s.Reduces axes t) (hφ : FKind.Formats φ) (hacc : acc = FKind.neutral .add φ hφ) (hx : AllReal src) :
    AllReal (multiReduction .add axes t src acc h hφ hacc) := by
  intro j
  show IsReal (Ideal.reduceAdd h src j)
  unfold Ideal.reduceAdd
  exact isReal_sum _ _ fun i _ => hx i

/-- A matrix unit's product of all-real operands onto an all-real accumulator is all-real, whatever the dimension
    numbers: every entry is an accumulator entry plus a finite sum of products. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) := by
  intro j
  show IsReal (FloatOps.matmul d prec lhs rhs acc j)
  rw [Ideal.matmul_apply]
  exact (hacc j).add (isReal_sum _ _ fun k _ => (hl _).mul (hr _))

/-- A matrix unit's product of all-real operands onto the zero splat is all-real. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (matmul d prec lhs rhs (constant (F := Ideal) so .f32 0x00000000#32)) :=
  allReal_matmul d prec hl hr (allReal_constant so .f32 _ ⟨0, by rw [Ideal.ofBits_zero_f32, EReal.coe_zero]⟩)

/-- The host's general product of all-real operands is all-real, whatever the dimension numbers. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Sums

/-! ### The constants of the network -/

section Consts
open Cert.BatchNorm.Consts

/-- The pattern of 0 denotes a real. -/
theorem isReal_ofBits_zero : IsReal (Ideal.ofBits .f32 0x00000000#32) := ⟨_, ofBits_zero⟩
/-- The pattern of 0.5 denotes a real. -/
theorem isReal_ofBits_half : IsReal (Ideal.ofBits .f32 0x3F000000#32) := ⟨_, ofBits_half⟩
/-- The pattern of 1 denotes a real. -/
theorem isReal_ofBits_one : IsReal (Ideal.ofBits .f32 0x3F800000#32) := ⟨_, ofBits_one⟩
/-- The pattern of 600000 denotes a real. -/
theorem isReal_ofBits_600000 : IsReal (Ideal.ofBits .f32 0x49127C00#32) := ⟨_, ofBits_600000⟩
/-- The pattern of 50000 denotes a real. -/
theorem isReal_ofBits_50000 : IsReal (Ideal.ofBits .f32 0x47435000#32) := ⟨_, ofBits_50000⟩
/-- The pattern of 32 denotes a real. -/
theorem isReal_ofBits_32 : IsReal (Ideal.ofBits .f32 0x42000000#32) := ⟨_, ofBits_32⟩
/-- The pattern nearest to 10⁻⁵ denotes a real. -/
theorem isReal_ofBits_eps : IsReal (Ideal.ofBits .f32 0x3727C5AC#32) := ⟨_, ofBits_eps⟩

/-- The pattern of 1 denotes a nonzero number. -/
theorem ofBits_one_ne_zero : Ideal.ofBits .f32 0x3F800000#32 ≠ 0 := by
  rw [ofBits_one, EReal.coe_one]; exact one_ne_zero
/-- The pattern of 600000 denotes a nonzero number. -/
theorem ofBits_600000_ne_zero : Ideal.ofBits .f32 0x49127C00#32 ≠ 0 := by
  rw [ofBits_600000]; exact_mod_cast (by norm_num : (600000 : ℝ) ≠ 0)
/-- The pattern of 50000 denotes a nonzero number. -/
theorem ofBits_50000_ne_zero : Ideal.ofBits .f32 0x47435000#32 ≠ 0 := by
  rw [ofBits_50000]; exact_mod_cast (by norm_num : (50000 : ℝ) ≠ 0)
/-- The pattern of 32 denotes a nonzero number. -/
theorem ofBits_32_ne_zero : Ideal.ofBits .f32 0x42000000#32 ≠ 0 := by
  rw [ofBits_32]; exact_mod_cast (by norm_num : (32 : ℝ) ≠ 0)

/-- The splat of the pattern nearest to 10⁻⁵ is all-positive. -/
theorem allPos_constant_eps (s : Shape) : AllPos (constant (F := Ideal) s .f32 0x3727C5AC#32) :=
  allPos_constant s .f32 _ eps_pos ofBits_eps

/-- The splat of the pattern of 1 is all-positive. -/
theorem allPos_constant_one (s : Shape) : AllPos (constant (F := Ideal) s .f32 0x3F800000#32) :=
  allPos_constant s .f32 _ one_pos ofBits_one

end Consts

/-! ### From a finiteness test to all-real -/

section Finite
variable {s : Shape} {φ : FTy}

/-- An extended real whose absolute value is below +∞ is real. -/
theorem isReal_of_abs_lt_top {x : EReal} (h : max x (-x) < ⊤) : IsReal x := by
  induction x using EReal.rec with
  | bot => simp at h
  | coe r => exact ⟨r, rfl⟩
  | top => simp at h

/-- An extended real that passes the test |x| < +∞ is real. -/
theorem isReal_of_cmp_olt_abs {x top : EReal} (htop : top = ⊤) (h : Ideal.cmp .olt (max x (-x)) top = 1#1) :
    IsReal x := by
  subst htop
  apply isReal_of_abs_lt_top
  by_contra hn
  simp [Ideal.cmp, hn] at h

/-- An array every entry of which passes the test |x| < +∞ is all-real. -/
theorem allReal_of_finite_mask {x inf : FVec Ideal s φ} (hinf : ∀ i, inf i = ⊤)
    (h : ∀ i, cmpf .olt (Host.absf x) inf i = 1#1) : AllReal x :=
  fun i => isReal_of_cmp_olt_abs (hinf i) (h i)

/-- An array for which the conjunction over all entries of the test |x| < +∞ came out true is all-real. -/
theorem allReal_of_all_finite {t u : Shape} {axes : List (Fin s.rank)} [Subsingleton t.Idx] {x inf : FVec Ideal s φ}
    (hinf : ∀ i, inf i = ⊤) (init : u.Idx → BitVec 1) (h : s.ReducesTo axes t) (hu : 0 < u.numel) (j : t.Idx)
    (e : Host.reduce IntOp.andi (cmpf .olt (Host.absf x) inf) init h hu j = 1#1) : AllReal x :=
  allReal_of_finite_mask hinf (Host.reduce_andi_all _ init h hu j e)

/-- The broadcast of the splat of the pattern of +∞ is +∞ everywhere. -/
theorem broadcastInDim_constant_inf {s0 : Shape} (dims : Fin s0.rank → Fin s.rank) (h : s0.BroadcastsInDim s dims)
    (i : s.Idx) : broadcastInDim s dims h (constant (F := Ideal) s0 .f32 0x7F800000#32) i = ⊤ :=
  Cert.BatchNorm.Consts.ofBits_inf

end Finite

end Cert.AllReal
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.FiniteInputs.lean ====
/-
  Finiteness on the reference side of a graph-convolution layer, before its normalisation.

  Three facts. First, the precondition — a conjunction of six tests "every entry has absolute value below +∞", one per
  float argument — makes every entry of every float argument a real number. Second, every node's degree is a real
  number that is at least one: the degree array is a scatter of 1700000 ones into 100000 zeros, the rows named by the
  receiving ends of the 1600000 edges followed by one self loop per node, so node v receives the one of its own self
  loop, which sits at position 1600000 + v, and every other contribution is a zero or a one. Third, the array the
  normalisation is applied to is real in every entry: it is built from real arguments by a matrix product, gathers,
  products with reciprocal square roots of degrees (positive reals), a row scatter into zeros and the addition of the
  bias, each of which keeps entries real.
-/
import proofs.«146365_j46978352284507_1_alg».proof.Proof.Gen.Pre_finite_inputs
import proofs.«146365_j46978352284507_1_alg».proof.Proof.RefRead
import proofs.«146365_j46978352284507_1_alg».proof.Proof.LibAllReal
import proofs.«146365_j46978352284507_1_alg».proof.Proof.LibScatterRows

noncomputable section

open scoped BigOperators

namespace Cert.ReferenceIdeal.Finite

open Cert.ReferenceIdeal Cert.ReferenceIdeal.Gen Idealize.ShloMosaic Idealize.ShloMosaic.ValueIdx
open Cert.RealSums Cert.AllReal Cert.BatchNorm.Consts

/-! ## The precondition makes the float arguments real -/

/-- A shape without axes has one index. -/
instance subsingleton_scalar_idx : Subsingleton Cert.Pre_finite_inputs.S_.Idx :=
  ⟨fun a b => funext fun d => d.elim0⟩

/-- THE ARGUMENTS ARE REAL. If the conjunction of the six finiteness tests came out true, every entry of each of the six
    float arguments is a real number. -/
theorem inputs_real [Cert.Pre_finite_inputs.Facts]
    (x0 : FVec Ideal Cert.Pre_finite_inputs.S100000x128 .f32) (x1 : FVec Ideal Cert.Pre_finite_inputs.S128x128 .f32)
    (x2 x3 x4 : FVec Ideal Cert.Pre_finite_inputs.S128 .f32) (x5 : FVec Ideal Cert.Pre_finite_inputs.S_ .f32)
    (x6 : IVec Cert.Pre_finite_inputs.S2x1600000 32)
    (hpre : Cert.Pre_finite_inputs.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧
      (∀ i, IsReal (x4 i)) ∧ (∀ i, IsReal (x5 i)) := by
  have h := congrFun hpre ix0
  dsimp only [Cert.Pre_finite_inputs.fn, Cert.Pre_finite_inputs.fn_part1] at h
  -- the conjunction of six bits is one exactly when each bit is one
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  -- each bit is a conjunction over all entries of the test against +∞
  refine ⟨?_, ?_, ?_, ?_, ?_, ?_⟩
  · exact allReal_of_all_finite (fun i => broadcastInDim_constant_inf _ _ i) _ _ _ _ h0
  · exact allReal_of_all_finite (fun i => broadcastInDim_constant_inf _ _ i) _ _ _ _ h1
  · exact allReal_of_all_finite (fun i => broadcastInDim_constant_inf _ _ i) _ _ _ _ h2
  · exact allReal_of_all_finite (fun i => broadcastInDim_constant_inf _ _ i) _ _ _ _ h3
  · exact allReal_of_all_finite (fun i => broadcastInDim_constant_inf _ _ i) _ _ _ _ h4
  · exact allReal_of_all_finite (fun _ => ofBits_inf) _ _ _ _ h5

/-! ## Every degree is a real number that is at least one -/

/-- The signed reading of a 32-bit word that holds a number below 2³¹ is that number. -/
theorem toInt_ofNat_of_lt (n : Nat) (hn : n < 2 ^ 31) : (BitVec.ofNat 32 n).toInt = (n : Int) := by
  rw [BitVec.toInt_eq_toNat_cond, BitVec.toNat_ofNat]
  have hmod : n % 2 ^ 32 = n := Nat.mod_eq_of_lt (by omega)
  rw [hmod]
  split <;> omega

/-- THE SELF LOOP OF NODE v. The list of receiving ends is the 1600000 receiving ends of the edges followed by the
    node numbers 0 … 99999; its column form holds, at row 1600000 + v, the word of the number v. -/
theorem recv_selfloop (x6 : (⟨S2x1600000, .i32⟩ : BufTy).Contents (Elt Ideal)) (v : Fin 100000)
    (hlt : 1600000 + v.val < 1700000) :
    ReadP.val_main_v9 (F := Ideal) x6 (ix2 (⟨1600000 + v.val, hlt⟩ : Fin 1700000) 0) = BitVec.ofNat 32 v.val := by
  rw [ReadP.val_main_v9_apply]
  unfold ReadP.val_main_v6
  refine (concatenate_pair_apply_right _ _ _ concatenates_S1600000_S100000_S1700000_d0 _ rfl rfl (ix1 v) ?_ ?_).trans ?_
  · intro b hb
    exact absurd (Fin.ext (by have := b.isLt; simp at this ⊢ <;> omega)) hb
  · show v.val + 1600000 = 1600000 + v.val
    omega
  · rfl

/-- THE DEGREES. The degree array is a scatter of 1700000 ones into 100000 zeros: its entry at node v is the number of
    positions of the extended list of receiving ends that hold v — a natural number, and at least one because
    position 1600000 + v holds v. -/
theorem degree_pos (x6 : (⟨S2x1600000, .i32⟩ : BufTy).Contents (Elt Ideal)) (i : S100000.Idx) :
    ∃ d : ℝ, 1 ≤ d ∧ ReadP.val_main_v10 (F := Ideal) x6 i = (d : EReal) := by
  obtain ⟨v, rfl⟩ : ∃ v : Fin 100000, i = ix1 v := ⟨i 0, eq_ix1 i⟩
  have hv : v.val < 100000 := v.isLt
  have key := Cert.ScatterRows.host_scatterAdd_vec_apply (φ := .f32) scatter_S100000_S1700000x1_S1700000_n_0_0_1 rfl rfl rfl rfl
    (ReadP.val_main_v8 (F := Ideal)) (ReadP.val_main_v9 (F := Ideal) x6) (ReadP.val_main_v7 (F := Ideal)) v
  -- the positions that hold v
  generalize hs : Finset.univ.filter
    (fun e : Fin 1700000 => (ReadP.val_main_v9 (F := Ideal) x6 (ix2 e 0)).toInt = (v.val : Int)) = s at key
  have hmem : (⟨1600000 + v.val, by omega⟩ : Fin 1700000) ∈ s := by
    rw [← hs, Finset.mem_filter]
    refine ⟨Finset.mem_univ _, ?_⟩
    rw [recv_selfloop x6 v (by omega)]
    exact toInt_ofNat_of_lt _ (by omega)
  have hcard : 1 ≤ s.card := Finset.card_pos.mpr ⟨_, hmem⟩
  refine ⟨(s.card : ℝ), by exact_mod_cast hcard, ?_⟩
  -- zero plus a one for each such position
  have h8 : ReadP.val_main_v8 (F := Ideal) (ix1 v) = ((0 : ℝ) : EReal) := ofBits_zero
  have h7 : ∀ e : Fin 1700000, ReadP.val_main_v7 (F := Ideal) (ix1 e) = ((1 : ℝ) : EReal) := fun _ => ofBits_one
  unfold ReadP.val_main_v10
  rw [key, h8, Finset.sum_congr rfl (fun e _ => h7 e), coe_sum, ← EReal.coe_add]
  simp

/-! ## The array the normalisation is applied to is real -/

/-- The degree array is positive in every entry. -/
theorem allPos_degree (x6 : (⟨S2x1600000, .i32⟩ : BufTy).Contents (Elt Ideal)) :
    AllPos (ReadP.val_main_v10 (F := Ideal) x6) := fun i => by
  obtain ⟨d, hd, e⟩ := degree_pos x6 i
  exact ⟨d, lt_of_lt_of_le one_pos hd, e⟩

/-- The reciprocal square roots of the degrees are real. -/
theorem allReal_invSqrtDegree (x6 : (⟨S2x1600000, .i32⟩ : BufTy).Contents (Elt Ideal)) :
    AllReal (ReadP.val_main_v11 (F := Ideal) x6) := by
  unfold ReadP.val_main_v11
  exact allReal_hostRsqrt (allPos_degree x6)

/-- The weight of an edge — the product of the factors of its two ends, each gathered from the array of reciprocal
    square roots — is real. -/
theorem allReal_edgeWeight (x6 : (⟨S2x1600000, .i32⟩ : BufTy).Contents (Elt Ideal)) :
    AllReal (ReadP.val_main_v26 (F := Ideal) x6) := by
  unfold ReadP.val_main_v26 ReadP.val_main_v18 ReadP.val_main_v25
  exact allReal_mulf (allReal_gather _ _ (allReal_invSqrtDegree x6)) (allReal_gather _ _ (allReal_invSqrtDegree x6))

/-- BEFORE THE NORMALISATION. With real features, weights and bias, every entry of the aggregated array plus the bias
    is real: the matrix product of reals is real, a gathered row of it times a real edge weight is real, the row scatter
    of such messages into zeros is real, and so is its sum with the bias row. -/
theorem preact_real (x0 : (⟨S100000x128, .f32⟩ : BufTy).Contents (Elt Ideal))
    (x1 : (⟨S128x128, .f32⟩ : BufTy).Contents (Elt Ideal)) (x2 : (⟨S128, .f32⟩ : BufTy).Contents (Elt Ideal))
    (x6 : (⟨S2x1600000, .i32⟩ : BufTy).Contents (Elt Ideal))
    (h0 : ∀ i, IsReal (x0 i)) (h1 : ∀ i, IsReal (x1 i)) (h2 : ∀ i, IsReal (x2 i)) :
    ∀ i, IsReal (ReadP.val_main_v43 (F := Ideal) x0 x1 x2 x6 i) := by
  -- the features times the weights
  have hxw : AllReal (ReadP.val_main_v27 (F := Ideal) x0 x1) := by
    unfold ReadP.val_main_v27
    exact allReal_dotGeneral _ _ h0 h1
  -- the edge weights, repeated along the 128 columns
  have hw : AllReal (ReadP.val_main_v36 (F := Ideal) x6) := by
    unfold ReadP.val_main_v36 ReadP.val_main_v35
    exact allReal_broadcastInDim _ _ _ (allReal_broadcastInDim _ _ _ (allReal_edgeWeight x6))
  -- the messages: the sending node's row times the edge weight
  have hmsg : AllReal (ReadP.val_main_v37 (F := Ideal) x0 x1 x6) := by
    unfold ReadP.val_main_v37 ReadP.val_main_v34
    exact allReal_mulf (allReal_gather _ _ hxw) hw
  -- the zeros the messages are added into
  have hzero : AllReal (ReadP.val_main_v38 (F := Ideal)) := by
    unfold ReadP.val_main_v38 ReadP.val_main_cst_6
    exact allReal_broadcastInDim_constant _ _ _ _ _ isReal_ofBits_zero
  -- the sum of the messages arriving at each node
  have hagg : AllReal (ReadP.val_main_v40 (F := Ideal) x0 x1 x6) := by
    unfold ReadP.val_main_v40
    exact allReal_scatterAdd _ _ hzero hmsg
  -- the bias row, repeated along the 100000 rows
  have hb : AllReal (ReadP.val_main_v42 (F := Ideal) x2) := by
    unfold ReadP.val_main_v42 ReadP.val_main_v41
    exact allReal_broadcastInDim _ _ _ (allReal_broadcastInDim _ _ _ h2)
  unfold ReadP.val_main_v43
  exact allReal_addf hagg hb

end Cert.ReferenceIdeal.Finite

end
-- ==== Proof.Bridge.lean ====
/-
  The two programs agree, entry by entry.

  Read at (r, q), the kernel's result is the layer's output entry with the reciprocal standard deviation taken from
  the variance "mean of squares minus squared mean", the reference's with the variance "mean of squared deviations";
  everything else — the pre-activation entry, the column's mean, gamma, beta, the slope, the input entry — is the same
  term on both sides. With finite inputs every pre-activation entry is a real number (every node has its own loop, so
  every degree is at least one and its reciprocal square root is real), and for a column of reals the two variances are
  equal. Hence the two results are equal at every index.
-/
import proofs.«146365_j46978352284507_1_alg».proof.Defs
import proofs.«146365_j46978352284507_1_alg».proof.Proof.Gen.Kernel.Frame
import proofs.«146365_j46978352284507_1_alg».proof.Proof.Gen.Pre_finite_inputs
import proofs.«146365_j46978352284507_1_alg».proof.Proof.Gen.ReferenceIdeal
import proofs.«146365_j46978352284507_1_alg».proof.Proof.KernelRun
import proofs.«146365_j46978352284507_1_alg».proof.Proof.KernelValue
import proofs.«146365_j46978352284507_1_alg».proof.Proof.RefValue
import proofs.«146365_j46978352284507_1_alg».proof.Proof.RefResult
import proofs.«146365_j46978352284507_1_alg».proof.Proof.FiniteInputs

noncomputable section

namespace Cert.Proof.Bridge

open Idealize.ShloMosaic Idealize.ShloMosaic.TcCoe Idealize.SL.Sem Idealize.ShloMosaic.ValueIdx
open Cert.GcnNorm Cert.RealSums

/-- Under the precondition the kernel's result buffer holds the reference's last stage of the same arguments. -/
theorem kernel_eq_ref (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = fun _ => 1#1) :
    Cert.KernelIdeal.Gen.W6 m ρ c (Proc.devRef .tc Cert.KernelIdeal.main_v57)
      = Cert.ReferenceIdeal.ReadP.val_main_v74 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  obtain ⟨h0, h1, h2, h3, h4, h5⟩ := Cert.ReferenceIdeal.Finite.inputs_real _ _ _ _ _ _ _ hpre
  funext i
  obtain ⟨r, q, rfl⟩ : ∃ (r : Fin 100000) (q : Fin 128), i = ix2 r q := ⟨i 0, i 1, eq_ix2 i⟩
  refine (Cert.KernelIdeal.KernelValue.result_at m ρ c r q).trans ?_
  refine Eq.trans ?_ (Cert.ReferenceIdeal.RefValue.result_at _ _ _ _ _ _ _ r q).symm
  have hy : ∀ r' : Fin 100000, IsReal (col (Cert.KernelIdeal.KernelValue.pre m c) q r') := fun r' =>
    Cert.ReferenceIdeal.Finite.preact_real _ _ _ _ h0 h1 h2 (ix2 r' q)
  rw [var_agree _ hy]
  rfl

end Cert.Proof.Bridge

/-! ## The claims -/

namespace Cert.Proof.Claims

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealisation pass rewrote nothing: the idealised kernel is the kernel's own text read over the extended reals. -/
theorem preserves : Cert.preserves_Kernel_KernelIdeal := trivial

/-- Run from memories agreeing on the arguments, both programs end with the reference's last stage of those
    arguments in their result buffers: the kernel by the entry-by-entry agreement above, the reference by its run. -/
theorem algebraic : Cert.algebraic_KernelIdeal_ReferenceIdeal := by
  intro m ρ m' ρ' hpre hagree
  refine ⟨fun c => Cert.ReferenceIdeal.ReadP.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Proof.Bridge.kernel_eq_ref m ρ c (hpre c)), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefResult.res_eq, (hagree c).1, (hagree c).2.1, (hagree c).2.2.1, (hagree c).2.2.2.1,
      (hagree c).2.2.2.2.1, (hagree c).2.2.2.2.2.1, (hagree c).2.2.2.2.2.2]

end Cert.Proof.Claims

end
-- ==== Proof.lean ====
/-
  One graph-convolution layer with batch normalisation, a leaky rectifier and a residual: the tiled program against
  its plain specification, over the extended reals.

  Both programs gather the rows of x · W along the edges (every node has an edge to itself), weigh them by the product
  of the reciprocal square roots of the two end nodes' degrees, add them up per destination node and add the bias;
  normalise every column of that array by its mean and variance; scale by gamma, shift by beta, apply the leaky
  rectifier and add x. The tiled program computes x · W in twenty row tiles, the column sums and sums of squares in one
  pass over twenty row tiles, and the final entries in twenty row tiles; between the tiles it uses the same host
  operations as the specification. At the extended reals a tiled product is the product and a tiled sum is the sum; the
  one real difference is the variance, mean of squares minus squared mean in the tiled program and mean of squared
  deviations in the specification, which agree for columns of real numbers — and the columns are real when the float
  inputs are finite, because every degree is at least one. The three frame claims are the programs' runs with the
  result dropped; the idealisation rewrote nothing, so its claim is trivial.
-/
import proofs.«146365_j46978352284507_1_alg».proof.Defs
import proofs.«146365_j46978352284507_1_alg».proof.Proof.Gen.Kernel
import proofs.«146365_j46978352284507_1_alg».proof.Proof.Gen.Kernel.Skeleton
import proofs.«146365_j46978352284507_1_alg».proof.Proof.Gen.Kernel.Launch
import proofs.«146365_j46978352284507_1_alg».proof.Proof.Gen.Kernel.Points
import proofs.«146365_j46978352284507_1_alg».proof.Proof.Gen.Kernel.Frame
import proofs.«146365_j46978352284507_1_alg».proof.Proof.Gen.KernelIdeal
import proofs.«146365_j46978352284507_1_alg».proof.Proof.Gen.KernelIdeal.Skeleton
import proofs.«146365_j46978352284507_1_alg».proof.Proof.Gen.KernelIdeal.Launch
import proofs.«146365_j46978352284507_1_alg».proof.Proof.Gen.KernelIdeal.Points
import proofs.«146365_j46978352284507_1_alg».proof.Proof.Gen.KernelIdeal.Frame
import proofs.«146365_j46978352284507_1_alg».proof.Proof.Gen.ReferenceIdeal
import proofs.«146365_j46978352284507_1_alg».proof.Proof.Gen.Pre_finite_inputs
import proofs.«146365_j46978352284507_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves,
  Cert.Proof.Claims.algebraic⟩

end Cert.Proof

end
